-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S8192x1024 : Shape := ⟨2, ![8192, 1024]⟩
abbrev S1024x8192 : Shape := ⟨2, ![1024, 8192]⟩
abbrev S8192 : Shape := ⟨1, ![8192]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg5 : FVec F S8192 .f32) (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S4x2048x1024 .f32) (main_arg1 : IVec S4x2048 32) (main_arg2 : FVec F S4x2048x1024 .f32) (main_arg3 : FVec F S8192x1024 .f32) (main_arg4 : FVec F S1024x8192 .f32) (main_arg5 : FVec F S8192 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg2
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x8192 .f32 := Host.absf main_arg4
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_arg5 main_v13 main_v16
-- ==== Kernel.lean ====
abbrev S4x2048x1024 : Shape := ⟨3, ![4, 2048, 1024]⟩
abbrev S4x2048 : Shape := ⟨2, ![4, 2048]⟩
abbrev S8192x1024 : Shape := ⟨2, ![8192, 1024]⟩
abbrev S1024x8192 : Shape := ⟨2, ![1024, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8x8x128 : Shape := ⟨3, ![8, 8, 128]⟩
abbrev S1024x1024 : Shape := ⟨2, ![1024, 1024]⟩
abbrev S1024x1 : Shape := ⟨2, ![1024, 1]⟩
abbrev S1x1024 : Shape := ⟨2, ![1, 1024]⟩
abbrev S1x8x128 : Shape := ⟨3, ![1, 8, 128]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩

abbrev nBuf : Space → Nat
  | .hbm => 33
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S4x2048x1024, .f32⟩
  | .hbm, ⟨3, _⟩ => ⟨S8192x1024, .f32⟩
  | .hbm, ⟨4, _⟩ => ⟨S1024x8192, .f32⟩
  | .hbm, ⟨5, _⟩ => ⟨S8192, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S1024x8192, .bf16⟩
  | .hbm, ⟨11, _⟩ => ⟨S8192x1024, .bf16⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S1x8192, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S1x8192, .f32⟩
  | .hbm, ⟨28, _⟩ => ⟨S8x8x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x8x128, .f32⟩
  | .local _ .vmem, ⟨17, _⟩ => ⟨S1x8x128, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_cst_0 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_cst_1 : Ref sig .tc := ⟨.hbm, 29, rfl⟩
abbrev main_call0_v20 : Ref sig .tc := ⟨.hbm, 30, rfl⟩
abbrev main_call0_cst_2 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v61 : BitVec 1 := Scalar.cmpi .eq arg1 c7_i32
  let v62 : BitVec 32 := Scalar.extui v61
  let c0_i32_33 : BitVec 32 := 0#32
  let v63 : BitVec 1 := Scalar.cmpi .ne v62 c0_i32_33
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4x2048x1024_S8192x1024 : S4x2048x1024.ShapeCasts S8192x1024
  bitsLt_bf16_f32 : FTy.bits .bf16 < FTy.bits .f32
  shapeCasts_S4x2048_S8192 : S4x2048.ShapeCasts S8192
  bcast_S_S8192 : S_.BroadcastsInDim S8192 (![] : Fin 0 → Fin S8192.rank)
  shapeCasts_S8192_S8192x1 : S8192.ShapeCasts S8192x1
  reducesTo_S8192x1024_S8192_d1 : S8192x1024.ReducesTo [1] S8192
  h_S_ : 0 < S_.numel
  bcast_S8192_S8192x1_0 : S8192.BroadcastsInDim S8192x1 (![0] : Fin 1 → Fin S8192x1.rank)
  shapeCasts_S8192_S1x8192 : S8192.ShapeCasts S1x8192
  reducesTo_S8x8x128_S_d0_1_2 : S8x8x128.ReducesTo [0, 1, 2] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x8192.size a
  hwx0_4 : ∀ i : grid0.Coords, EltTy.bits .bf16 = 32 ∨ (Rect.block (s := S1024x8192) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S8x8x128.size a
  hwx0_8 : ∀ i : grid0.Coords, EltTy.bits .f32 = 32 ∨ (Rect.block (s := S8x8x128) S1x8x128.size (cc0_transform_8 i) (hinb0_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_call0_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v18) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v19) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S8192x1024 : Shape := ⟨2, ![8192, 1024]⟩
abbrev S1024x8192 : Shape := ⟨2, ![1024, 8192]⟩
abbrev S8192 : Shape := ⟨1, ![8192]⟩
abbrev S_ : Shape := ⟨0, ![]⟩
abbrev S4x2048x8192 : Shape := ⟨3, ![4, 2048, 8192]⟩
abbrev S1x1x8192 : Shape := ⟨3, ![1, 1, 8192]⟩
abbrev S4x2048x1 : Shape := ⟨3, ![4, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S4x2048x1024, .f32⟩
  | .hbm, ⟨3, _⟩ => ⟨S8192x1024, .f32⟩
  | .hbm, ⟨4, _⟩ => ⟨S1024x8192, .f32⟩
  | .hbm, ⟨5, _⟩ => ⟨S8192, .f32⟩
  | .hbm, ⟨6, _⟩ => ⟨S_, .i32⟩
  | .hbm, ⟨7, _⟩ => ⟨S4x2048, .i32⟩
  | .hbm, ⟨8, _⟩ => ⟨S4x2048, .i1⟩
  | .hbm, ⟨9, _⟩ => ⟨S4x2048, .f32⟩
  | .hbm, ⟨10, _⟩ => ⟨S4x2048x8192, .f32⟩
  | .hbm, ⟨11, _⟩ => ⟨S1x1x8192, .f32⟩
  | .hbm, ⟨12, _⟩ => ⟨S4x2048x8192, .f32⟩
  | .hbm, ⟨13, _⟩ => ⟨S4x2048x8192, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x8192, .f32⟩
  | .hbm, ⟨21, _⟩ => ⟨S4x2048x8192, .f32⟩
  | .hbm, ⟨22, _⟩ => ⟨S4x2048x8192, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x8192, .f32⟩
  | .hbm, ⟨27, _⟩ => ⟨S4x2048x8192, .f32⟩
  | .hbm, ⟨28, _⟩ => ⟨S4x2048x1024, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S4x2048x8192, .f32⟩
  | .hbm, ⟨36, _⟩ => ⟨S_, .f32⟩
  | .hbm, ⟨37, _⟩ => ⟨S4x2048x8192, .f32⟩
  | .hbm, ⟨38, _⟩ => ⟨S4x2048x8192, .f32⟩
  | .hbm, ⟨39, _⟩ => ⟨S4x2048x8192, .f32⟩
  | .hbm, ⟨40, _⟩ => ⟨S4x2048x8192, .f32⟩
  | .hbm, ⟨41, _⟩ => ⟨S1x1x8192, .f32⟩
  | .hbm, ⟨42, _⟩ => ⟨S4x2048x8192, .f32⟩
  | .hbm, ⟨43, _⟩ => ⟨S4x2048x8192, .f32⟩
  | .hbm, ⟨44, _⟩ => ⟨S_, .f32⟩
  | .hbm, ⟨45, _⟩ => ⟨S4x2048x8192, .f32⟩
  | .hbm, ⟨46, _⟩ => ⟨S4x2048x8192, .f32⟩
  | .hbm, ⟨47, _⟩ => ⟨S4x2048x8192, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  reducesTo_S4x2048x8192_S4x2048_d2 : S4x2048x8192.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x8192_0_1_2 : S4x2048x1.BroadcastsInDim S4x2048x8192 (![0, 1, 2] : Fin 3 → Fin S4x2048x8192.rank)
  reducesTo_S4x2048x1024_S4x2048_d2 : S4x2048x1024.ReducesTo [2] S4x2048
  reducesTo_S8192x1024_S8192_d1 : S8192x1024.ReducesTo [1] S8192
  bcast_S_S4x2048x8192 : S_.BroadcastsInDim S4x2048x8192 (![] : Fin 0 → Fin S4x2048x8192.rank)
  reducesTo_S4x2048_S_d0_1 : S4x2048.ReducesTo [0, 1] S_
  dot_S4x2048x1024_S1024x8192_S4x2048x8192_2_0_01_1_n_n_wf : DotDims.WF S4x2048x1024 S1024x8192 S4x2048x8192 [2] [0] [0, 1] [1] [] []
  dot_S4x2048x1024_S8192x1024_S4x2048x8192_2_1_01_0_n_n_wf : DotDims.WF S4x2048x1024 S8192x1024 S4x2048x8192 [2] [1] [0, 1] [0] [] []

variable [Facts₀]

def dot_S4x2048x1024_S1024x8192_S4x2048x8192_2_0_01_1_n_n : DotDims S4x2048x1024 S1024x8192 S4x2048x8192 where
  lhsContracting := [2]
  rhsContracting := [0]
  lhsNonContracting := [0, 1]
  rhsNonContracting := [1]
  lhsBatch := []
  rhsBatch := []
  wf := dot_S4x2048x1024_S1024x8192_S4x2048x8192_2_0_01_1_n_n_wf
def dot_S4x2048x1024_S8192x1024_S4x2048x8192_2_1_01_0_n_n : DotDims S4x2048x1024 S8192x1024 S4x2048x8192 where
  lhsContracting := [2]
  rhsContracting := [1]
  lhsNonContracting := [0, 1]
  rhsNonContracting := [0]
  lhsBatch := []
  rhsBatch := []
  wf := dot_S4x2048x1024_S8192x1024_S4x2048x8192_2_1_01_0_n_n_wf

class Facts : Prop extends Facts₀ where

variable [Facts]
-- ==== Proof.Pieces.lean ====
import proofs.«174575_j62972810494575_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid point leaves behind, as values.

  A grid point `(r, j)` holds row tile `r` (1024 rows) and column tile `j` (1024 codebook columns). The body keeps three
  columns of 1024 numbers between the points of one row tile: the running shift `m`, the normaliser `l` and the weighted
  sum `acc`. From the point's input blocks and the three columns it finds (`ms`, `ls`, `accs`) it leaves `shiftNext`,
  `normNext`, `accNext`; at `j = 0` it first stores `-∞`, `0`, `0` and reads those back, and at `j = 7` it also stores the
  output block `blockOut` of the mask column and the two columns it has just left. Each lemma below reads one buffer's
  final contents off the stores the body made: the last store into a buffer covers it whole, and a load after a covering
  store reads that store's value.
-/

namespace Cert.KernelIdeal.Sweep

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The shift after the point: the larger of the shift found and the tile's row maxima of the logits. -/
def shiftNext (x0 x4 : Vec F S1024x1024 .bf16) (x6 : Vec F S1x1024 .f32) (ms : Vec F S1024x1 .f32) : Vec F S1024x1 .f32 :=
  k0_pay3 (k0_pay11 x0 x4 x6 ms)
/-- The normaliser after the point: the one found, rescaled to the new shift, plus the tile's exponentials. -/
def normNext (x0 x4 : Vec F S1024x1024 .bf16) (x6 : Vec F S1x1024 .f32) (ms ls : Vec F S1024x1 .f32) : Vec F S1024x1 .f32 :=
  k0_pay1 (k0_pay12 x0 x4 x6 ms) (k0_pay14 x0 x4 x6 ms) ls
/-- The weighted sum after the point: the one found, rescaled, plus the tile's exponentials weighted by the squared distances. -/
def accNext (x0 x1 : Vec F S1024x1024 .bf16) (x3 : Vec F S1024x1 .f32) (x4 x5 : Vec F S1024x1024 .bf16) (x6 x7 : Vec F S1x1024 .f32)
    (ms accs : Vec F S1024x1 .f32) : Vec F S1024x1 .f32 :=
  k0_pay2 (k0_pay8 x7) (k0_pay9 x3) (k0_pay12 x0 x4 x6 ms) (k0_pay13 x0 x4 x6 ms) (k0_pay14 x0 x4 x6 ms) (k0_pay15 x0 x1 x4 x5 x6 ms) accs
/-- The output block of the row tile's last point: the masked quotients summed over the tile's rows, times `2^-10`, at every entry. -/
def blockOut (x2 accs ls : Vec F S1024x1 .f32) : Vec F S1x8x128 .f32 := k0_pay4 x2 accs ls

theorem left_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = shiftNext x0 x4 x6 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_A_1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = normNext x0 x4 x6 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_A_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = accNext x0 x1 x3 x4 x5 x6 x7 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = shiftNext x0 x4 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  try sl_unfold_words
  rw [View.canon_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_B_1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = normNext x0 x4 x6 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  try sl_unfold_words
  rw [View.canon_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_B_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = accNext x0 x1 x3 x4 x5 x6 x7 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  try sl_unfold_words
  rw [View.canon_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = shiftNext x0 x4 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  try sl_unfold_words
  rw [View.canon_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_C_1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = normNext x0 x4 x6 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  try sl_unfold_words
  rw [View.canon_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_C_2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = accNext x0 x1 x3 x4 x5 x6 x7 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  try sl_unfold_words
  rw [View.canon_unit_zero (S := S1024x1) hz2]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

theorem left_C_out (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x8x128 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x1024 .bf16) (x1 : Vec F S1024x1024 .bf16) (x2 : Vec F S1024x1 .f32) (x3 : Vec F S1024x1 .f32) (x4 : Vec F S1024x1024 .bf16) (x5 : Vec F S1024x1024 .bf16) (x6 : Vec F S1x1024 .f32) (x7 : Vec F S1x1024 .f32) (xs0 : Vec F S1024x1 .f32) (xs1 : Vec F S1024x1 .f32) (xs2 : Vec F S1024x1 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = blockOut x2 (accNext x0 x1 x3 x4 x5 x6 x7 xs0 xs2) (normNext x0 x4 x6 xs0 xs1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  try sl_unfold_words
  rw [View.canon_unit_zero (S := S1x8x128) hz3]
  simp only [View.readCov_unit_zero (S := S1024x1) _ hz2, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S1024x1024) hz2, View.ld_unit_zero (S := S1x1024) hz2, View.ld_unit_zero (S := S1024x1) hz2]
  rfl

end Cert.KernelIdeal.Sweep

end
-- ==== Proof.Consts.lean ====
/-
  The f32 words the two programs spell, as extended reals: `2`, `1024`, `1/1024 = 2^-10` (an exact binary
  fraction, so a product with it IS the quotient by `1024`) and `-∞`.
-/
import Idealize.ShloMosaic.PureOps.Ideal

noncomputable section

namespace Cert.Consts

open Idealize.ShloMosaic

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

end Cert.Consts

end
-- ==== Proof.LayoutAt.lean ====
import proofs.«174575_j62972810494575_2_alg».proof.Proof.Gen.KernelIdeal.Skeleton
import proofs.«174575_j62972810494575_2_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

/-!
  The body's arithmetic read at one row, over the extended reals.

  With `x0` the hidden rows' block, `x4` the weights' column block and `x6` the bias' block, row `p` and column `q` of
  the tile:  `logit p q = ∑ₖ x0[p, k] · x4[k, q] + x6[0, q]`;  the new shift at row `p` is the larger of the shift found and
  the maximum of the row's logits folded from `-∞`;  `p[p, q] = e^(logit p q - shift p)`;  the three row sums are
  `∑_q p[p, q]`, `∑_q p[p, q] · (∑ₖ x1[p, k] · x5[q, k])` and `∑_q p[p, q] · x7[0, q]`; and the column updates and the
  output block are the expressions the body spells, entry by entry. Nothing here is more than reading a product, a
  row reduction, a broadcast or a change of shape at an index.
-/

namespace Cert.KernelIdeal.At

open Cert.KernelIdeal Cert.KernelIdeal.Gen

abbrev dotLogit := dot_S1024x1024_S1024x1024_S1024x1024_1_0_0_1_n_n
abbrev dotCross := dot_S1024x1024_S1024x1024_S1024x1024_1_1_0_0_n_n

/-! ## Layout operations at an index -/

/-- A length-1024 vector recast as a column reads, at row `p`, the vector at `p`. -/
theorem cast_col {α : Type} (v : S1024.Idx → α) (h : S1024.ShapeCasts S1024x1) (p : Fin 1024) :
    shapeCast S1024x1 v h (ix2 p (0 : Fin 1)) = v (ix1 p) :=
  shapeCast_apply v h _ _ (by rw [Shape.rowMajor_val_one, Shape.rowMajor_val_two]; show p.val = p.val * 1 + 0; omega)

/-- A column broadcast along the rows reads, at `(p, q)`, the column at `p`. -/
theorem bcast_col {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ => show p.val = if (1024 : ℕ) = 1 then 0 else p.val; rw [if_neg (by norm_num)]
  | ⟨1, _⟩ => show (0 : ℕ) = if (1 : ℕ) = 1 then 0 else q.val; rw [if_pos rfl]

/-- The one entry of a `[1,1,1]` array broadcast to `[1,8,128]` is read at every entry. -/
theorem bcast_one {α : Type} (v : S1x1x1.Idx → α) (h : S1x1x1.Broadcasts S1x8x128) (a : Fin 8) (b : Fin 128) :
    broadcastTo S1x8x128 v h (ix3 (0 : Fin 1) a b) = v (ix3 (0 : Fin 1) (0 : Fin 1) (0 : Fin 1)) := by
  refine broadcastTo_apply v h _ _ fun ax => ?_
  match ax with
  | ⟨0, _⟩ => show (0 : ℕ) = if (1 : ℕ) = 1 then 0 else _; rw [if_pos rfl]
  | ⟨1, _⟩ => show (0 : ℕ) = if (1 : ℕ) = 1 then 0 else _; rw [if_pos rfl]
  | ⟨2, _⟩ => show (0 : ℕ) = if (1 : ℕ) = 1 then 0 else _; rw [if_pos rfl]

theorem cast_1_11 {α : Type} (v : S1.Idx → α) (h : S1.ShapeCasts S1x1) :
    shapeCast S1x1 v h (ix2 (0 : Fin 1) (0 : Fin 1)) = v (ix1 (0 : Fin 1)) :=
  shapeCast_apply v h _ _ (by rw [Shape.rowMajor_val_one, Shape.rowMajor_val_two]; rfl)

theorem cast_11_111 {α : Type} (v : S1x1.Idx → α) (h : S1x1.ShapeCasts S1x1x1) :
    shapeCast S1x1x1 v h (ix3 (0 : Fin 1) (0 : Fin 1) (0 : Fin 1)) = v (ix2 (0 : Fin 1) (0 : Fin 1)) :=
  shapeCast_apply v h _ _ (by rw [Shape.rowMajor_val_two, Shape.rowMajor_val_three]; rfl)

/-! ## Row reductions at an index -/

/-- A row sum of a `[1024, 1024]` array at row `p`. -/
theorem rowsum_at (src : FVec Ideal S1024x1024 .f32) (p : Fin 1024) :
    multiReduction .add [1] S1024 src 0x00000000#32 reduces_S1024x1024_S1024 (.inl rfl) rfl (ix1 p) = ∑ q : Fin 1024, src (ix2 p q) := by
  refine (Ideal.multiReduction_add_single src 0x00000000#32 reduces_S1024x1024_S1024 (.inl rfl) rfl (ix1 p)).trans ?_
  show ∑ q : Fin 1024, src (reduces_S1024x1024_S1024.lift (ix1 p) q) = _
  refine Finset.sum_congr rfl fun q _ => congrArg src (funext fun ax => Fin.ext ?_)
  match ax with
  | ⟨0, _⟩ => rfl
  | ⟨1, _⟩ => rfl

/-- A row maximum of a `[1024, 1024]` array at row `p`, folded from `-∞`. -/
theorem rowmax_at (src : FVec Ideal S1024x1024 .f32) (p : Fin 1024) :
    multiReduction .maximumf [1] S1024 src 0xFF800000#32 reduces_S1024x1024_S1024 (.inl rfl) rfl (ix1 p)
      = (Finset.univ : Finset (Fin 1024)).fold max (⊥ : EReal) (fun q => src (ix2 p q)) := by
  refine (Ideal.multiReduction_maximumf_single src 0xFF800000#32 reduces_S1024x1024_S1024 (.inl rfl) rfl (ix1 p)).trans ?_
  show (Finset.univ : Finset (Fin 1024)).fold max (Ideal.ofBits .f32 0xFF800000#32) (fun q => src (reduces_S1024x1024_S1024.lift (ix1 p) q)) = _
  rw [Cert.Consts.ofBits_neg_inf]
  refine congrArg (fun f => (Finset.univ : Finset (Fin 1024)).fold max (⊥ : EReal) f) (funext fun q => congrArg src (funext fun ax => Fin.ext ?_))
  match ax with
  | ⟨0, _⟩ => rfl
  | ⟨1, _⟩ => rfl

/-- The sum down a column `[1024, 1]` into `[1]`. -/
theorem colsum_at (src : FVec Ideal S1024x1 .f32) :
    multiReduction .add [0] S1 src 0x00000000#32 reduces_S1024x1_S1 (.inl rfl) rfl (ix1 (0 : Fin 1)) = ∑ p : Fin 1024, src (ix2 p (0 : Fin 1)) := by
  refine (Ideal.multiReduction_add_single src 0x00000000#32 reduces_S1024x1_S1 (.inl rfl) rfl (ix1 (0 : Fin 1))).trans ?_
  show ∑ p : Fin 1024, src (reduces_S1024x1_S1.lift (ix1 (0 : Fin 1)) p) = _
  refine Finset.sum_congr rfl fun p _ => congrArg src (funext fun ax => Fin.ext ?_)
  match ax with
  | ⟨0, _⟩ => rfl
  | ⟨1, _⟩ => rfl

/-! ## The two products at an index -/

theorem lhsLogit0 (i : S1024x1024.Idx) (k : dotLogit.contr.Idx) : (dotLogit.lhsIdx i k 0).val = (i 0).val := by
  unfold DotDims.lhsIdx
  rw [dif_neg (show ¬(0 : Fin S1024x1024.rank) ∈ dotLogit.lhsBatch by decide), dif_pos (show (0 : Fin S1024x1024.rank) ∈ dotLogit.lhsNonContracting by decide)]
  rfl
theorem rhsLogit1 (i : S1024x1024.Idx) (k : dotLogit.contr.Idx) : (dotLogit.rhsIdx i k 1).val = (i 1).val := by
  unfold DotDims.rhsIdx
  rw [dif_neg (show ¬(1 : Fin S1024x1024.rank) ∈ dotLogit.rhsBatch by decide), dif_pos (show (1 : Fin S1024x1024.rank) ∈ dotLogit.rhsNonContracting by decide)]
  rfl
theorem lhsCross0 (i : S1024x1024.Idx) (k : dotCross.contr.Idx) : (dotCross.lhsIdx i k 0).val = (i 0).val := by
  unfold DotDims.lhsIdx
  rw [dif_neg (show ¬(0 : Fin S1024x1024.rank) ∈ dotCross.lhsBatch by decide), dif_pos (show (0 : Fin S1024x1024.rank) ∈ dotCross.lhsNonContracting by decide)]
  rfl
theorem rhsCross0 (i : S1024x1024.Idx) (k : dotCross.contr.Idx) : (dotCross.rhsIdx i k 0).val = (i 1).val := by
  unfold DotDims.rhsIdx
  rw [dif_neg (show ¬(0 : Fin S1024x1024.rank) ∈ dotCross.rhsBatch by decide), dif_pos (show (0 : Fin S1024x1024.rank) ∈ dotCross.rhsNonContracting by decide)]
  rfl

/-- Rows times columns: `(a · b)[p, q] = ∑ₖ a[p, k] · b[k, q]`. -/
theorem mm_logit (a b : FVec Ideal S1024x1024 .bf16) (p q : Fin 1024) :
    matmul dotLogit none a b (constant (F := Ideal) S1024x1024 .f32 0x00000000#32) (ix2 p q) = ∑ k : Fin 1024, a (ix2 p k) * b (ix2 k q) := by
  simp only [matmul]
  rw [Ideal.matmul_constant_zero_apply, ← Equiv.sum_comp (contrEquiv1 dotLogit 1024 rfl rfl).symm]
  refine Finset.sum_congr rfl fun k _ => ?_
  have hk := contrEquiv1_symm_val dotLogit 1024 rfl rfl k
  have el : dotLogit.lhsIdx (ix2 p q) ((contrEquiv1 dotLogit 1024 rfl rfl).symm k) = ix2 p k := funext fun ax => Fin.ext (by
    match ax with
    | ⟨0, _⟩ => exact lhsLogit0 _ _
    | ⟨1, _⟩ => exact (dotLogit.lhsIdx_val_of_single rfl _ _).trans hk)
  have er : dotLogit.rhsIdx (ix2 p q) ((contrEquiv1 dotLogit 1024 rfl rfl).symm k) = ix2 k q := funext fun ax => Fin.ext (by
    match ax with
    | ⟨0, _⟩ => exact (dotLogit.rhsIdx_val_of_single rfl _ _).trans hk
    | ⟨1, _⟩ => exact rhsLogit1 _ _)
  rw [el, er]

/-- Rows times rows: `(a · bᵀ)[p, q] = ∑ₖ a[p, k] · b[q, k]`. -/
theorem mm_cross (a b : FVec Ideal S1024x1024 .bf16) (p q : Fin 1024) :
    matmul dotCross none a b (constant (F := Ideal) S1024x1024 .f32 0x00000000#32) (ix2 p q) = ∑ k : Fin 1024, a (ix2 p k) * b (ix2 q k) := by
  simp only [matmul]
  rw [Ideal.matmul_constant_zero_apply, ← Equiv.sum_comp (contrEquiv1 dotCross 1024 rfl rfl).symm]
  refine Finset.sum_congr rfl fun k _ => ?_
  have hk := contrEquiv1_symm_val dotCross 1024 rfl rfl k
  have el : dotCross.lhsIdx (ix2 p q) ((contrEquiv1 dotCross 1024 rfl rfl).symm k) = ix2 p k := funext fun ax => Fin.ext (by
    match ax with
    | ⟨0, _⟩ => exact lhsCross0 _ _
    | ⟨1, _⟩ => exact (dotCross.lhsIdx_val_of_single rfl _ _).trans hk)
  have er : dotCross.rhsIdx (ix2 p q) ((contrEquiv1 dotCross 1024 rfl rfl).symm k) = ix2 q k := funext fun ax => Fin.ext (by
    match ax with
    | ⟨0, _⟩ => exact rhsCross0 _ _
    | ⟨1, _⟩ => exact (dotCross.rhsIdx_val_of_single rfl _ _).trans hk)
  rw [el, er]

end Cert.KernelIdeal.At

end
-- ==== Proof.StepAt.lean ====
import proofs.«174575_j62972810494575_2_alg».proof.Proof.LayoutAt

noncomputable section

open scoped BigOperators
open Idealize.ShloMosaic Idealize.ShloMosaic.ValueIdx

/-!
  Each value the body computes, read at row `p` of the tile (and column `q` where it has one), over the extended
  reals: the logits, the new shift, the rescaling factor, the exponentials and their three row sums, the two column
  updates, the output block, and the three columns stored at a row tile's first point (`-∞`, `0`, `0`).
-/

namespace Cert.KernelIdeal.At

open Cert.KernelIdeal Cert.KernelIdeal.Gen

variable (x0 x1 x4 x5 : S1024x1024.Idx → EReal) (x2 x3 : S1024x1.Idx → EReal) (x6 x7 : S1x1024.Idx → EReal)
  (ms ls accs : S1024x1.Idx → EReal)

/-- `logit p q = ∑ₖ x0[p, k] · x4[k, q] + x6[0, q]`. -/
theorem logit_at (p q : Fin 1024) :
    (k0_pay10 (F := Ideal) x0 x4 x6 (ix2 p q) : EReal) = (∑ k : Fin 1024, x0 (ix2 p k) * x4 (ix2 k q)) + x6 (ix2 (0 : Fin 1) q) := by
  unfold k0_pay10
  show (matmul dotLogit none (shapeCast S1024x1024 x0 shapeCasts_S1024x1024_S1024x1024 : FVec Ideal S1024x1024 .bf16)
      (shapeCast S1024x1024 x4 shapeCasts_S1024x1024_S1024x1024 : FVec Ideal S1024x1024 .bf16)
      (constant (F := Ideal) S1024x1024 .f32 0x00000000#32) (ix2 p q) : EReal)
    + broadcastTo S1024x1024 (shapeCast S1x1024 x6 shapeCasts_S1x1024_S1x1024) broadcasts_S1x1024_S1024x1024 (ix2 p q) = _
  rw [shapeCast_self, shapeCast_self, shapeCast_self, mm_logit, broadcastTo_1b_ab_apply]

/-- A column's maximum with the row maxima of a `[1024, 1024]` array, at row `p`. -/
theorem maxcol_at (src : FVec Ideal S1024x1024 .f32) (p : Fin 1024) :
    (maximumf (ms : FVec Ideal S1024x1 .f32) (shapeCast S1024x1 (multiReduction .maximumf [1] S1024 src 0xFF800000#32
        reduces_S1024x1024_S1024 (.inl rfl) rfl) shapeCasts_S1024_S1024x1) (ix2 p (0 : Fin 1)) : EReal)
      = max (ms (ix2 p (0 : Fin 1))) ((Finset.univ : Finset (Fin 1024)).fold max (⊥ : EReal) (fun q => src (ix2 p q))) := by
  rw [maximumf_apply, cast_col, rowmax_at]

/-- The new shift: the larger of the shift found and the row's largest logit (folded from `-∞`). -/
theorem shift_at (p : Fin 1024) :
    (k0_pay11 (F := Ideal) x0 x4 x6 ms (ix2 p (0 : Fin 1)) : EReal)
      = max (ms (ix2 p (0 : Fin 1))) ((Finset.univ : Finset (Fin 1024)).fold max (⊥ : EReal) (fun q => (k0_pay10 (F := Ideal) x0 x4 x6 (ix2 p q) : EReal))) := by
  unfold k0_pay11
  exact maxcol_at ms (k0_pay10 (F := Ideal) x0 x4 x6) p

/-- The rescaling factor `e^(old shift - new shift)`. -/
theorem scale_at (p : Fin 1024) :
    (k0_pay12 (F := Ideal) x0 x4 x6 ms (ix2 p (0 : Fin 1)) : EReal)
      = Ideal.exp (ms (ix2 p (0 : Fin 1)) - (k0_pay11 (F := Ideal) x0 x4 x6 ms (ix2 p (0 : Fin 1)) : EReal)) := by
  unfold k0_pay12
  rfl

/-- `p[p, q] = e^(logit p q - new shift p)`. -/
theorem prob_at (p q : Fin 1024) :
    (k0_pay13 (F := Ideal) x0 x4 x6 ms (ix2 p q) : EReal)
      = Ideal.exp ((k0_pay10 (F := Ideal) x0 x4 x6 (ix2 p q) : EReal) - (k0_pay11 (F := Ideal) x0 x4 x6 ms (ix2 p (0 : Fin 1)) : EReal)) := by
  unfold k0_pay13
  show Ideal.exp ((k0_pay10 (F := Ideal) x0 x4 x6 (ix2 p q) : EReal)
      - broadcastTo S1024x1024 (k0_pay11 (F := Ideal) x0 x4 x6 ms) broadcasts_S1024x1_S1024x1024 (ix2 p q)) = _
  rw [bcast_col]

/-- `∑_q p[p, q]`. -/
theorem psum_at (p : Fin 1024) :
    (k0_pay14 (F := Ideal) x0 x4 x6 ms (ix2 p (0 : Fin 1)) : EReal) = ∑ q : Fin 1024, (k0_pay13 (F := Ideal) x0 x4 x6 ms (ix2 p q) : EReal) := by
  unfold k0_pay14
  show shapeCast S1024x1 (multiReduction .add [1] S1024 (k0_pay13 (F := Ideal) x0 x4 x6 ms) 0x00000000#32
      reduces_S1024x1024_S1024 (.inl rfl) rfl) shapeCasts_S1024_S1024x1 (ix2 p (0 : Fin 1)) = _
  rw [cast_col, rowsum_at]

/-- `∑_q p[p, q] · (∑ₖ x1[p, k] · x5[q, k])`. -/
theorem pcross_at (p : Fin 1024) :
    (k0_pay15 (F := Ideal) x0 x1 x4 x5 x6 ms (ix1 p) : EReal)
      = ∑ q : Fin 1024, (k0_pay13 (F := Ideal) x0 x4 x6 ms (ix2 p q) : EReal) * ∑ k : Fin 1024, x1 (ix2 p k) * x5 (ix2 q k) := by
  unfold k0_pay15
  show multiReduction .add [1] S1024 (mulf (k0_pay13 (F := Ideal) x0 x4 x6 ms)
      (matmul dotCross none (shapeCast S1024x1024 x1 shapeCasts_S1024x1024_S1024x1024 : FVec Ideal S1024x1024 .bf16)
        (shapeCast S1024x1024 x5 shapeCasts_S1024x1024_S1024x1024 : FVec Ideal S1024x1024 .bf16)
        (constant (F := Ideal) S1024x1024 .f32 0x00000000#32))) 0x00000000#32 reduces_S1024x1024_S1024 (.inl rfl) rfl (ix1 p) = _
  rw [rowsum_at, shapeCast_self, shapeCast_self]
  refine Finset.sum_congr rfl fun q _ => ?_
  show (k0_pay13 (F := Ideal) x0 x4 x6 ms (ix2 p q) : EReal) * matmul dotCross none (x1 : FVec Ideal S1024x1024 .bf16) (x5 : FVec Ideal S1024x1024 .bf16)
      (constant (F := Ideal) S1024x1024 .f32 0x00000000#32) (ix2 p q) = _
  rw [mm_cross]

/-- The normaliser's update: `factor · l + ∑p`. -/
theorem norm_at (a s l : S1024x1.Idx → EReal) (p : Fin 1024) :
    (k0_pay1 (F := Ideal) a s l (ix2 p (0 : Fin 1)) : EReal) = a (ix2 p (0 : Fin 1)) * l (ix2 p (0 : Fin 1)) + s (ix2 p (0 : Fin 1)) := by
  unfold k0_pay1
  simp only [shapeCast_self]
  rfl

/-- The weighted sum's update: `factor · acc + ((τ · ∑p - 2 · ∑p·cross) + ∑p·csq) · 2^-10`. -/
theorem acc_at (v14 : S1x1024.Idx → EReal) (v16 v26 : S1024x1.Idx → EReal) (v29 : S1024x1024.Idx → EReal)
    (v31 : S1024x1.Idx → EReal) (v33 : S1024.Idx → EReal) (v45 : S1024x1.Idx → EReal) (p : Fin 1024) :
    (k0_pay2 (F := Ideal) v14 v16 v26 v29 v31 v33 v45 (ix2 p (0 : Fin 1)) : EReal)
      = v26 (ix2 p (0 : Fin 1)) * v45 (ix2 p (0 : Fin 1))
        + ((v16 (ix2 p (0 : Fin 1)) * v31 (ix2 p (0 : Fin 1)) - Ideal.ofBits .f32 0x40000000#32 * v33 (ix1 p))
            + ∑ q : Fin 1024, v29 (ix2 p q) * v14 (ix2 (0 : Fin 1) q)) * Ideal.ofBits .f32 0x3A800000#32 := by
  unfold k0_pay2
  show shapeCast S1024x1 (addf (mulf (v26 : FVec Ideal S1024x1 .f32) v45)
      (mulf (addf (subf (mulf (v16 : FVec Ideal S1024x1 .f32) v31)
          (mulf (broadcast S1024x1 (Scalar.ofBits (F := Ideal) .f32 0x40000000#32)) (shapeCast S1024x1 v33 shapeCasts_S1024_S1024x1)))
        (shapeCast S1024x1 (multiReduction .add [1] S1024 (mulf (v29 : FVec Ideal S1024x1024 .f32)
          (broadcastTo S1024x1024 v14 broadcasts_S1x1024_S1024x1024)) 0x00000000#32 reduces_S1024x1024_S1024 (.inl rfl) rfl) shapeCasts_S1024_S1024x1))
        (broadcast S1024x1 (Scalar.ofBits (F := Ideal) .f32 0x3A800000#32)))) shapeCasts_S1024x1_S1024x1 (ix2 p (0 : Fin 1)) = _
  rw [shapeCast_self]
  show v26 (ix2 p (0 : Fin 1)) * v45 (ix2 p (0 : Fin 1))
      + ((v16 (ix2 p (0 : Fin 1)) * v31 (ix2 p (0 : Fin 1)) - Ideal.ofBits .f32 0x40000000#32 * (shapeCast S1024x1 v33 shapeCasts_S1024_S1024x1 (ix2 p (0 : Fin 1)) : EReal))
        + (shapeCast S1024x1 (multiReduction (F := Ideal) .add [1] S1024 (mulf (v29 : FVec Ideal S1024x1024 .f32)
          (broadcastTo S1024x1024 v14 broadcasts_S1x1024_S1024x1024)) 0x00000000#32 reduces_S1024x1024_S1024 (.inl rfl) rfl) shapeCasts_S1024_S1024x1 (ix2 p (0 : Fin 1)) : EReal))
        * Ideal.ofBits .f32 0x3A800000#32 = _
  rw [cast_col, cast_col, rowsum_at]
  refine congrArg (fun z => v26 (ix2 p (0 : Fin 1)) * v45 (ix2 p (0 : Fin 1))
      + ((v16 (ix2 p (0 : Fin 1)) * v31 (ix2 p (0 : Fin 1)) - Ideal.ofBits .f32 0x40000000#32 * v33 (ix1 p)) + z) * Ideal.ofBits .f32 0x3A800000#32)
    (Finset.sum_congr rfl fun q _ => ?_)
  show v29 (ix2 p q) * broadcastTo S1024x1024 v14 broadcasts_S1x1024_S1024x1024 (ix2 p q) = _
  rw [broadcastTo_1b_ab_apply]

/-- The output block: every entry is `(∑_p mask p · (acc p / l p)) · 2^-10`. -/
theorem out_at (v64 v66 v67 : S1024x1.Idx → EReal) (a : Fin 8) (b : Fin 128) :
    (k0_pay4 (F := Ideal) v64 v66 v67 (ix3 (0 : Fin 1) a b) : EReal)
      = (∑ p : Fin 1024, v64 (ix2 p (0 : Fin 1)) * Ideal.div (v66 (ix2 p (0 : Fin 1))) (v67 (ix2 p (0 : Fin 1)))) * Ideal.ofBits .f32 0x3A800000#32 := by
  unfold k0_pay4
  show broadcastTo S1x8x128 (shapeCast S1x1x1 (mulf (shapeCast S1x1x1 (shapeCast S1x1 (multiReduction .add [0] S1
      (mulf (shapeCast S1024x1 (v64 : FVec Ideal S1024x1 .f32) shapeCasts_S1024x1_S1024x1) (divf (v66 : FVec Ideal S1024x1 .f32) v67)) 0x00000000#32
      reduces_S1024x1_S1 (.inl rfl) rfl) shapeCasts_S1_S1x1) shapeCasts_S1x1_S1x1x1)
      (broadcast S1x1x1 (Scalar.ofBits (F := Ideal) .f32 0x3A800000#32))) shapeCasts_S1x1x1_S1x1x1) broadcasts_S1x1x1_S1x8x128 (ix3 (0 : Fin 1) a b) = _
  rw [bcast_one, shapeCast_self, shapeCast_self]
  show shapeCast S1x1x1 (shapeCast S1x1 (multiReduction .add [0] S1 (mulf (v64 : FVec Ideal S1024x1 .f32) (divf (v66 : FVec Ideal S1024x1 .f32) v67)) 0x00000000#32
      reduces_S1024x1_S1 (.inl rfl) rfl) shapeCasts_S1_S1x1) shapeCasts_S1x1_S1x1x1 (ix3 (0 : Fin 1) (0 : Fin 1) (0 : Fin 1))
      * Ideal.ofBits .f32 0x3A800000#32 = _
  rw [cast_11_111, cast_1_11, colsum_at]
  rfl

/-- A row tile's first point stores `-∞` as the shift … -/
theorem init_shift (i : S1024x1.Idx) : (k0_pay5 (F := Ideal) i : EReal) = (⊥ : EReal) := by
  unfold k0_pay5
  show shapeCast S1024x1 (broadcast S1024x1 (Scalar.ofBits (F := Ideal) .f32 0xFF800000#32)) shapeCasts_S1024x1_S1024x1 i = _
  rw [shapeCast_self]
  exact Cert.Consts.ofBits_neg_inf
/-- … and `0` as the normaliser and as the weighted sum. -/
theorem init_norm (i : S1024x1.Idx) : (k0_pay6 (F := Ideal) i : EReal) = (0 : EReal) := by
  unfold k0_pay6
  show shapeCast S1024x1 (broadcast S1024x1 (Scalar.ofBits (F := Ideal) .f32 0x00000000#32)) shapeCasts_S1024x1_S1024x1 i = _
  rw [shapeCast_self]
  exact Ideal.ofBits_zero_f32
theorem init_acc (i : S1024x1.Idx) : (k0_pay7 (F := Ideal) i : EReal) = (0 : EReal) := by
  unfold k0_pay7
  show shapeCast S1024x1 (broadcast S1024x1 (Scalar.ofBits (F := Ideal) .f32 0x00000000#32)) shapeCasts_S1024x1_S1024x1 i = _
  rw [shapeCast_self]
  exact Ideal.ofBits_zero_f32

theorem keep3 (v : S1024x1.Idx → EReal) : k0_pay3 (F := Ideal) v = v := by unfold k0_pay3; exact shapeCast_self _ _
theorem keep8 (v : S1x1024.Idx → EReal) : k0_pay8 (F := Ideal) v = v := by unfold k0_pay8; exact shapeCast_self _ _
theorem keep9 (v : S1024x1.Idx → EReal) : k0_pay9 (F := Ideal) v = v := by unfold k0_pay9; exact shapeCast_self _ _

end Cert.KernelIdeal.At

end
-- ==== Proof.LibOnlineSoftmax.lean ====
/-
  A softmax-weighted mean computed in ONE sweep over column tiles with a running shift, in real numbers, and the
  few facts that carry real values through the extended reals. No program in sight.

  The sweep keeps, per row, a shift `m`, a normaliser `l` and a weighted sum `acc`. What matters is not which
  number the shift is but the two products `l · e^m` and `acc · e^m`: after the tiles seen so far they are the
  plain sums `∑ e^(λ c)` and `∑ e^(λ c) · w c` over the columns seen (`online_norm_step`, `online_acc_step`: moving
  the shift from `m` to ANY real `m'` multiplies the old terms by `e^(m - m')`, and `e^(m - m') · e^(m')= e^m`). So at
  the end `acc / l` is the quotient of the two plain sums (`online_quot`), and that quotient is also what a softmax
  taken with any shift `M`, weighted by `w` and summed, gives (`softmax_mean_shift`): the exponentials' common factor
  `e^(-M)` cancels. The weights here have the form `((τ - 2·u c) + q c) / 1024`, written on the sweep's side as
  `((τ·∑p - 2·∑p·u) + ∑p·q) · (1/1024)` with the row constant `τ` and the factor taken out of the sums.

  For the extended reals: a finite sum of reals is the real sum (`coe_sum`), a quotient of reals by a nonzero real is
  the real quotient (`div_coe_coe`), and a maximum folded from `-∞` over a nonempty finite family of reals is a real
  (`fold_max_real`), as is its maximum with `-∞` or with a real (`max_bot_real`, `max_coe_real`).

  Imports only the ideal instance's operations.
-/
import Idealize.ShloMosaic.PureOps.Ideal

noncomputable section

open scoped BigOperators

namespace Cert.Lib

open Idealize.ShloMosaic

/-! ## Real values inside the extended reals -/

/-- The real sum, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real over a nonzero real, divided at the ideal instance, is the real quotient. -/
theorem div_coe_coe (a b : ℝ) (hb : b ≠ 0) : Ideal.div (a : EReal) (b : EReal) = ((a / b : ℝ) : EReal) := by
  rw [Ideal.div_coe hb, ← EReal.coe_mul, mul_one_div]

/-- The maximum folded from `-∞` over a finite family of reals is `-∞` on the empty family and a real otherwise. -/
theorem fold_max_bot_or_real {ι : Type*} (s : Finset ι) (f : ι → ℝ) :
    (s.fold max (⊥ : EReal) (fun i => (f i : EReal)) = ⊥ ∧ s = ∅) ∨ ∃ r : ℝ, s.fold max (⊥ : EReal) (fun i => (f i : EReal)) = (r : EReal) := by
  classical
  induction s using Finset.induction_on with
  | empty => exact Or.inl ⟨Finset.fold_empty, rfl⟩
  | insert a s ha ih =>
    refine Or.inr ?_
    rw [Finset.fold_insert ha]
    rcases ih with ⟨h, _⟩ | ⟨r, h⟩
    · exact ⟨f a, by rw [h, max_eq_left bot_le]⟩
    · exact ⟨max (f a) r, by rw [h]; exact (EReal.coe_strictMono.monotone.map_max).symm⟩

/-- Over a nonempty family it is a real. -/
theorem fold_max_real {ι : Type*} (s : Finset ι) (hs : s.Nonempty) (f : ι → ℝ) :
    ∃ r : ℝ, s.fold max (⊥ : EReal) (fun i => (f i : EReal)) = (r : EReal) := by
  rcases fold_max_bot_or_real s f with ⟨_, h⟩ | h
  · exact absurd h hs.ne_empty
  · exact h

theorem max_bot_real (r : ℝ) : ∃ r' : ℝ, max (⊥ : EReal) (r : EReal) = (r' : EReal) := ⟨r, max_eq_right bot_le⟩
theorem max_coe_real (a r : ℝ) : ∃ r' : ℝ, max (a : EReal) (r : EReal) = (r' : EReal) := ⟨max a r, (EReal.coe_strictMono.monotone.map_max).symm⟩

/-! ## One step of the sweep, in real numbers -/

variable {Q : Type*} [Fintype Q]

/-- The normaliser: after the step its product with `e^(m')` has gained the new tile's plain exponentials. -/
theorem online_norm_step (m m' l S : ℝ) (lam : Q → ℝ) (h : l * Real.exp m = S) :
    (Real.exp (m - m') * l + ∑ q, Real.exp (lam q - m')) * Real.exp m' = S + ∑ q, Real.exp (lam q) := by
  have e1 : Real.exp (m - m') * Real.exp m' = Real.exp m := by rw [← Real.exp_add]; congr 1; ring
  have e2 : ∀ q, Real.exp (lam q - m') * Real.exp m' = Real.exp (lam q) := fun q => by
    rw [← Real.exp_add]; congr 1; ring
  rw [add_mul, Finset.sum_mul, mul_right_comm, e1, mul_comm, h]
  exact congrArg (S + ·) (Finset.sum_congr rfl fun q _ => e2 q)

/-- The weighted sum: the same, with the weights `((τ - 2·u q) + cq q) / 1024` taken apart as the sweep writes them. -/
theorem online_acc_step (m m' acc S τ : ℝ) (lam u cq : Q → ℝ) (h : acc * Real.exp m = S) :
    (Real.exp (m - m') * acc
        + ((τ * (∑ q, Real.exp (lam q - m')) - 2 * ∑ q, Real.exp (lam q - m') * u q) + ∑ q, Real.exp (lam q - m') * cq q)
          * (1 / 1024)) * Real.exp m'
      = S + ∑ q, Real.exp (lam q) * (((τ - 2 * u q) + cq q) / 1024) := by
  have e1 : Real.exp (m - m') * Real.exp m' = Real.exp m := by rw [← Real.exp_add]; congr 1; ring
  have e2 : ∀ q, Real.exp (lam q) = Real.exp (lam q - m') * Real.exp m' := fun q => by
    rw [← Real.exp_add]; congr 1; ring
  rw [add_mul, mul_right_comm, e1, mul_comm (Real.exp m), h]
  refine congrArg (S + ·) ?_
  simp only [Finset.mul_sum, Finset.sum_mul, ← Finset.sum_sub_distrib, ← Finset.sum_add_distrib]
  refine Finset.sum_congr rfl fun q _ => ?_
  rw [e2 q]; ring

/-- At the end the quotient of the two running values is the quotient of the two plain sums. -/
theorem online_quot (m l acc S1 S2 : ℝ) (h1 : l * Real.exp m = S1) (h2 : acc * Real.exp m = S2) : acc / l = S2 / S1 := by
  rw [← h1, ← h2, mul_div_mul_right _ _ (Real.exp_ne_zero m)]

/-- A softmax taken with any shift, weighted and summed, is the same quotient. -/
theorem softmax_mean_shift (M : ℝ) (lam w : Q → ℝ) :
    ∑ c, w c * (Real.exp (lam c - M) / ∑ c', Real.exp (lam c' - M)) = (∑ c, Real.exp (lam c) * w c) / ∑ c, Real.exp (lam c) := by
  have e : ∀ c, Real.exp (lam c - M) = Real.exp (lam c) * Real.exp (-M) := fun c => by
    rw [← Real.exp_add]; congr 1
  simp only [e, ← Finset.sum_mul]
  rw [Finset.sum_div]
  refine Finset.sum_congr rfl fun c _ => ?_
  rw [mul_div_mul_right _ _ (Real.exp_ne_zero _)]; ring

end Cert.Lib

end
-- ==== Proof.StepReal.lean ====
import proofs.«174575_j62972810494575_2_alg».proof.Proof.StepAt
import proofs.«174575_j62972810494575_2_alg».proof.Proof.Pieces
import proofs.«174575_j62972810494575_2_alg».proof.Proof.LibOnlineSoftmax

noncomputable section

open scoped BigOperators
open Idealize.ShloMosaic Idealize.ShloMosaic.ValueIdx

/-!
  One grid point on one row, when the row's block entries are real numbers.

  Fix row `p` of the tile, with `x0[p, k] = A k`, `x1[p, k] = T k`, `x3[p] = τ`, `x4[k, q] = W k q`, `x5[q, k] = C q k`,
  `x6[q] = b q`, `x7[q] = cq q` (`RowReal`). Then `lam q = ∑ₖ A k · W k q + b q` are the row's logits on this tile and
  `crossR q = ∑ₖ T k · C q k` its cross terms, and every value the body computes at row `p` is a real read in the
  extended reals. The invariant carried from point to point (`RowInv`): the three columns hold reals `m`, `l`, `acc` at
  row `p` with `l · e^m = S1` and `acc · e^m = S2`, the plain sums over the columns seen so far. One point adds the
  tile's terms to `S1` and `S2` (`step_later`); a row tile's first point, which finds `-∞, 0, 0`, starts them (`step_first`:
  `e^(-∞ - m') = 0` and `0 · 0 = 0`, so the columns found do not contribute).
-/

namespace Cert.KernelIdeal.Sweep

open Cert.KernelIdeal Cert.KernelIdeal.Gen Cert.KernelIdeal.At Cert.Lib

/-- The three columns at one row are reals `m, l, acc` with `l · e^m = S1`, `acc · e^m = S2`. -/
def RowInv (mv lv av : EReal) (S1 S2 : ℝ) : Prop :=
  ∃ m l acc : ℝ, mv = (m : EReal) ∧ lv = (l : EReal) ∧ av = (acc : EReal) ∧ l * Real.exp m = S1 ∧ acc * Real.exp m = S2

section
variable (x0 x1 x4 x5 : S1024x1024.Idx → EReal) (x3 : S1024x1.Idx → EReal) (x6 x7 : S1x1024.Idx → EReal)
  (ms ls accs : S1024x1.Idx → EReal) (p : Fin 1024)
variable (A T : Fin 1024 → ℝ) (W C : Fin 1024 → Fin 1024 → ℝ) (b cq : Fin 1024 → ℝ) (τ : ℝ)

/-- The block entries that row `p` reads are these reals. -/
structure RowReal : Prop where
  h0 : ∀ k, x0 (ix2 p k) = (A k : EReal)
  h1 : ∀ k, x1 (ix2 p k) = (T k : EReal)
  h3 : x3 (ix2 p (0 : Fin 1)) = (τ : EReal)
  h4 : ∀ k q, x4 (ix2 k q) = (W k q : EReal)
  h5 : ∀ q k, x5 (ix2 q k) = (C q k : EReal)
  h6 : ∀ q, x6 (ix2 (0 : Fin 1) q) = (b q : EReal)
  h7 : ∀ q, x7 (ix2 (0 : Fin 1) q) = (cq q : EReal)

/-- The row's logits on this tile. -/
def lam (q : Fin 1024) : ℝ := ∑ k, A k * W k q + b q
/-- The row's cross terms on this tile. -/
def crossR (q : Fin 1024) : ℝ := ∑ k, T k * C q k
/-- The weight of column `q`: the mean squared distance, expanded. -/
def wt (q : Fin 1024) : ℝ := ((τ - 2 * crossR T C q) + cq q) / 1024

variable {x0 x1 x4 x5 x3 x6 x7 p A T W C b cq τ ms ls accs}
variable (h : RowReal x0 x1 x4 x5 x3 x6 x7 p A T W C b cq τ)
include h

theorem logit_real (q : Fin 1024) : (k0_pay10 (F := Ideal) x0 x4 x6 (ix2 p q) : EReal) = ((lam A W b q : ℝ) : EReal) := by
  rw [logit_at]
  have e : ∀ k, x0 (ix2 p k) * x4 (ix2 k q) = ((A k * W k q : ℝ) : EReal) := fun k => by rw [h.h0, h.h4, EReal.coe_mul]
  rw [Finset.sum_congr rfl (fun k _ => e k), ← coe_sum, h.h6, ← EReal.coe_add]
  rfl

theorem cross_real (q : Fin 1024) : (∑ k : Fin 1024, x1 (ix2 p k) * x5 (ix2 q k)) = ((crossR T C q : ℝ) : EReal) := by
  have e : ∀ k, x1 (ix2 p k) * x5 (ix2 q k) = ((T k * C q k : ℝ) : EReal) := fun k => by rw [h.h1, h.h5, EReal.coe_mul]
  rw [Finset.sum_congr rfl (fun k _ => e k), ← coe_sum]
  rfl

/-- The new shift is a real, whether the shift found is `-∞` or a real. -/
theorem shift_real (hms : ms (ix2 p (0 : Fin 1)) = ⊥ ∨ ∃ m : ℝ, ms (ix2 p (0 : Fin 1)) = (m : EReal)) :
    ∃ m' : ℝ, (k0_pay11 (F := Ideal) x0 x4 x6 ms (ix2 p (0 : Fin 1)) : EReal) = (m' : EReal) := by
  rw [shift_at]
  have e : (fun q => (k0_pay10 (F := Ideal) x0 x4 x6 (ix2 p q) : EReal)) = fun q => ((lam A W b q : ℝ) : EReal) := funext (logit_real h)
  rw [e]
  obtain ⟨r, hr⟩ := fold_max_real (Finset.univ : Finset (Fin 1024)) ⟨0, Finset.mem_univ _⟩ (lam A W b)
  rw [hr]
  rcases hms with h0 | ⟨m, h0⟩
  · rw [h0]; exact max_bot_real r
  · rw [h0]; exact max_coe_real m r

section tile
variable {m' : ℝ} (hm' : (k0_pay11 (F := Ideal) x0 x4 x6 ms (ix2 p (0 : Fin 1)) : EReal) = (m' : EReal))
include hm'

theorem prob_real (q : Fin 1024) : (k0_pay13 (F := Ideal) x0 x4 x6 ms (ix2 p q) : EReal) = ((Real.exp (lam A W b q - m') : ℝ) : EReal) := by
  rw [prob_at, logit_real h, hm', ← EReal.coe_sub, Ideal.exp_coe]

theorem psum_real : (k0_pay14 (F := Ideal) x0 x4 x6 ms (ix2 p (0 : Fin 1)) : EReal) = ((∑ q, Real.exp (lam A W b q - m') : ℝ) : EReal) := by
  rw [psum_at, Finset.sum_congr rfl (fun q _ => prob_real h hm' q), ← coe_sum]

theorem pcross_real :
    (k0_pay15 (F := Ideal) x0 x1 x4 x5 x6 ms (ix1 p) : EReal) = ((∑ q, Real.exp (lam A W b q - m') * crossR T C q : ℝ) : EReal) := by
  rw [pcross_at]
  have e : ∀ q : Fin 1024, (k0_pay13 (F := Ideal) x0 x4 x6 ms (ix2 p q) : EReal) * ∑ k : Fin 1024, x1 (ix2 p k) * x5 (ix2 q k)
      = ((Real.exp (lam A W b q - m') * crossR T C q : ℝ) : EReal) := fun q => by
    rw [prob_real h hm' q, cross_real h q, EReal.coe_mul]
  rw [Finset.sum_congr rfl (fun q _ => e q), ← coe_sum]

theorem pcsq_real :
    (∑ q : Fin 1024, (k0_pay13 (F := Ideal) x0 x4 x6 ms (ix2 p q) : EReal) * x7 (ix2 (0 : Fin 1) q)) = ((∑ q, Real.exp (lam A W b q - m') * cq q : ℝ) : EReal) := by
  have e : ∀ q : Fin 1024, (k0_pay13 (F := Ideal) x0 x4 x6 ms (ix2 p q) : EReal) * x7 (ix2 (0 : Fin 1) q)
      = ((Real.exp (lam A W b q - m') * cq q : ℝ) : EReal) := fun q => by
    rw [prob_real h hm' q, h.h7, EReal.coe_mul]
  rw [Finset.sum_congr rfl (fun q _ => e q), ← coe_sum]

/-- The two updated columns at row `p`, when the rescaled old values are the reals `al · l` and `al · acc`. -/
theorem step_core (l acc al : ℝ)
    (hl : (k0_pay12 (F := Ideal) x0 x4 x6 ms (ix2 p (0 : Fin 1)) : EReal) * ls (ix2 p (0 : Fin 1)) = ((al * l : ℝ) : EReal))
    (hacc : (k0_pay12 (F := Ideal) x0 x4 x6 ms (ix2 p (0 : Fin 1)) : EReal) * accs (ix2 p (0 : Fin 1)) = ((al * acc : ℝ) : EReal)) :
    (normNext (F := Ideal) x0 x4 x6 ms ls (ix2 p (0 : Fin 1)) : EReal) = ((al * l + ∑ q, Real.exp (lam A W b q - m') : ℝ) : EReal)
    ∧ (accNext (F := Ideal) x0 x1 x3 x4 x5 x6 x7 ms accs (ix2 p (0 : Fin 1)) : EReal)
        = ((al * acc + ((τ * (∑ q, Real.exp (lam A W b q - m')) - 2 * ∑ q, Real.exp (lam A W b q - m') * crossR T C q)
              + ∑ q, Real.exp (lam A W b q - m') * cq q) * (1 / 1024) : ℝ) : EReal) := by
  constructor
  · unfold normNext
    rw [norm_at, hl, psum_real h hm', ← EReal.coe_add]
  · unfold accNext
    rw [acc_at, keep8, keep9, hacc, h.h3, psum_real h hm', pcross_real h hm', pcsq_real h hm',
      Cert.Consts.ofBits_two, Cert.Consts.ofBits_inv1024]
    simp only [← EReal.coe_mul, ← EReal.coe_sub, ← EReal.coe_add]

end tile

/-- A later point of a row tile: the invariant moves on by this tile's terms. -/
theorem step_later {S1 S2 : ℝ}
    (hinv : RowInv (ms (ix2 p (0 : Fin 1))) (ls (ix2 p (0 : Fin 1))) (accs (ix2 p (0 : Fin 1))) S1 S2) :
    RowInv (shiftNext (F := Ideal) x0 x4 x6 ms (ix2 p (0 : Fin 1))) (normNext (F := Ideal) x0 x4 x6 ms ls (ix2 p (0 : Fin 1)))
      (accNext (F := Ideal) x0 x1 x3 x4 x5 x6 x7 ms accs (ix2 p (0 : Fin 1)))
      (S1 + ∑ q, Real.exp (lam A W b q)) (S2 + ∑ q, Real.exp (lam A W b q) * wt T C cq τ q) := by
  obtain ⟨m, l, acc, hm, hl, hacc, h1, h2⟩ := hinv
  obtain ⟨m', hm'⟩ := shift_real h (ms := ms) (Or.inr ⟨m, hm⟩)
  have hsc : (k0_pay12 (F := Ideal) x0 x4 x6 ms (ix2 p (0 : Fin 1)) : EReal) = ((Real.exp (m - m') : ℝ) : EReal) := by
    rw [scale_at, hm, hm', ← EReal.coe_sub, Ideal.exp_coe]
  obtain ⟨e1, e2⟩ := step_core h (ms := ms) (ls := ls) (accs := accs) hm' l acc (Real.exp (m - m'))
    (by rw [hsc, hl, EReal.coe_mul]) (by rw [hsc, hacc, EReal.coe_mul])
  refine ⟨m', _, _, ?_, e1, e2, online_norm_step m m' l S1 (lam A W b) h1, ?_⟩
  · unfold shiftNext; rw [keep3]; exact hm'
  · exact online_acc_step m m' acc S2 τ (lam A W b) (crossR T C) cq h2

/-- A row tile's first point: the columns found are `-∞, 0, 0`, and the invariant starts at this tile's terms. -/
theorem step_first :
    RowInv (shiftNext (F := Ideal) x0 x4 x6 (k0_pay5 (F := Ideal)) (ix2 p (0 : Fin 1))) (normNext (F := Ideal) x0 x4 x6 (k0_pay5 (F := Ideal)) (k0_pay6 (F := Ideal)) (ix2 p (0 : Fin 1)))
      (accNext (F := Ideal) x0 x1 x3 x4 x5 x6 x7 (k0_pay5 (F := Ideal)) (k0_pay7 (F := Ideal)) (ix2 p (0 : Fin 1)))
      (∑ q, Real.exp (lam A W b q)) (∑ q, Real.exp (lam A W b q) * wt T C cq τ q) := by
  obtain ⟨m', hm'⟩ := shift_real h (ms := (k0_pay5 (F := Ideal))) (Or.inl (init_shift _))
  obtain ⟨e1, e2⟩ := step_core h (ms := (k0_pay5 (F := Ideal))) (ls := (k0_pay6 (F := Ideal))) (accs := (k0_pay7 (F := Ideal))) hm' 0 0 (Real.exp (m' - m'))
    (by rw [init_norm, mul_zero, mul_zero, EReal.coe_zero]) (by rw [init_acc, mul_zero, mul_zero, EReal.coe_zero])
  refine ⟨m', _, _, ?_, e1, e2, ?_, ?_⟩
  · unfold shiftNext; rw [keep3]; exact hm'
  · have := online_norm_step m' m' 0 0 (lam A W b) (zero_mul _)
    rwa [zero_add] at this
  · have := online_acc_step m' m' 0 0 τ (lam A W b) (crossR T C) cq (zero_mul _)
    rwa [zero_add] at this

end

end Cert.KernelIdeal.Sweep

end
-- ==== Proof.BlocksAt.lean ====
import proofs.«174575_j62972810494575_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

/-!
  The input blocks at a grid point. Point `t` of the `8 × 8` grid is row tile `t / 8`, column tile `t % 8`. The row
  windows (hidden, target, mask, squared norms of the targets) take block `(t / 8, 0)`: entry `(p, k)` of the block is
  entry `(1024 · (t / 8) + p, k)` of the array. The weights, the bias and the codebook's squared norms take block
  `(0, t % 8)`: column `q` of the block is column `1024 · (t % 8) + q`; the codebook takes block `(t % 8, 0)`: row `q` of the
  block is row `1024 · (t % 8) + q`.
-/

namespace Cert.KernelIdeal.Blocks

open Cert.KernelIdeal Cert.KernelIdeal.Gen

variable (m : (ℓ : Loc nD τ sig) → Buf (Elt Ideal) ℓ) (c : Dev nD)

/-- The array row of row `p` of the row tile at point `t`. -/
def rowAt (t : Fin cfg0.N) (p : Fin 1024) : Fin 8192 :=
  ⟨t.val / 8 * 1024 + p.val, by have hN : cfg0.N = 64 := N_0; have := t.isLt; have := p.isLt; omega⟩
/-- The array column of column `q` of the column tile at point `t`. -/
def colAt (t : Fin cfg0.N) (q : Fin 1024) : Fin 8192 :=
  ⟨t.val % 8 * 1024 + q.val, by have := q.isLt; omega⟩

theorem idx_rows0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_rows1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem idx_rows2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx_rows3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem idx_cols4 : ∀ t : Fin cfg0.N, win0_4.index t (0 : Fin 2) = 0 ∧ win0_4.index t (1 : Fin 2) = t.val % 8 :=
  (by decide +kernel : ∀ t : Fin grid0.N, win0_4.index t (0 : Fin 2) = 0 ∧ win0_4.index t (1 : Fin 2) = t.val % 8)
theorem idx_cols5 : ∀ t : Fin cfg0.N, win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0)
theorem idx_cols6 : ∀ t : Fin cfg0.N, win0_6.index t (0 : Fin 2) = 0 ∧ win0_6.index t (1 : Fin 2) = t.val % 8 :=
  (by decide +kernel : ∀ t : Fin grid0.N, win0_6.index t (0 : Fin 2) = 0 ∧ win0_6.index t (1 : Fin 2) = t.val % 8)
theorem idx_cols7 : ∀ t : Fin cfg0.N, win0_7.index t (0 : Fin 2) = 0 ∧ win0_7.index t (1 : Fin 2) = t.val % 8 :=
  (by decide +kernel : ∀ t : Fin grid0.N, win0_7.index t (0 : Fin 2) = 0 ∧ win0_7.index t (1 : Fin 2) = t.val % 8)

theorem blk_hidden (t : Fin cfg0.N) (p : Fin 1024) (k : Fin 1024) :
    (iblk m c 0 t : Vec Ideal S1024x1024 .bf16) (ix2 p k)
      = (V m c main_call0_v1 : S8192x1024.Idx → EReal) (ix2 (rowAt t p) k) := by
  unfold iblk
  rw [View.read_apply]
  show (V m c main_call0_v1 : S8192x1024.Idx → EReal) _ = (V m c main_call0_v1 : S8192x1024.Idx → EReal) _
  refine congrArg (V m c main_call0_v1 : S8192x1024.Idx → EReal) (funext fun a => Fin.ext ?_)
  have hN : cfg0.N = 64 := N_0
  have ht := t.isLt
  match a with
  | ⟨0, _⟩ => show win0_0.index t 0 * 1024 + 1 * p.val = _; rw [(idx_rows0 t).1]; show t.val / 8 * 1024 + 1 * p.val = t.val / 8 * 1024 + p.val; omega
  | ⟨1, _⟩ => show win0_0.index t 1 * 1024 + 1 * k.val = _; rw [(idx_rows0 t).2]; show 0 * 1024 + 1 * k.val = k.val; omega

theorem blk_target (t : Fin cfg0.N) (p : Fin 1024) (k : Fin 1024) :
    (iblk m c 1 t : Vec Ideal S1024x1024 .bf16) (ix2 p k)
      = (V m c main_call0_v3 : S8192x1024.Idx → EReal) (ix2 (rowAt t p) k) := by
  unfold iblk
  rw [View.read_apply]
  show (V m c main_call0_v3 : S8192x1024.Idx → EReal) _ = (V m c main_call0_v3 : S8192x1024.Idx → EReal) _
  refine congrArg (V m c main_call0_v3 : S8192x1024.Idx → EReal) (funext fun a => Fin.ext ?_)
  have hN : cfg0.N = 64 := N_0
  have ht := t.isLt
  match a with
  | ⟨0, _⟩ => show win0_1.index t 0 * 1024 + 1 * p.val = _; rw [(idx_rows1 t).1]; show t.val / 8 * 1024 + 1 * p.val = t.val / 8 * 1024 + p.val; omega
  | ⟨1, _⟩ => show win0_1.index t 1 * 1024 + 1 * k.val = _; rw [(idx_rows1 t).2]; show 0 * 1024 + 1 * k.val = k.val; omega

theorem blk_mask (t : Fin cfg0.N) (p : Fin 1024) (z : Fin 1) :
    (iblk m c 2 t : Vec Ideal S1024x1 .f32) (ix2 p z)
      = (V m c main_call0_v10 : S8192x1.Idx → EReal) (ix2 (rowAt t p) z) := by
  unfold iblk
  rw [View.read_apply]
  show (V m c main_call0_v10 : S8192x1.Idx → EReal) _ = (V m c main_call0_v10 : S8192x1.Idx → EReal) _
  refine congrArg (V m c main_call0_v10 : S8192x1.Idx → EReal) (funext fun a => Fin.ext ?_)
  have hN : cfg0.N = 64 := N_0
  have ht := t.isLt
  match a with
  | ⟨0, _⟩ => show win0_2.index t 0 * 1024 + 1 * p.val = _; rw [(idx_rows2 t).1]; show t.val / 8 * 1024 + 1 * p.val = t.val / 8 * 1024 + p.val; omega
  | ⟨1, _⟩ => show win0_2.index t 1 * 1 + 1 * z.val = _; rw [(idx_rows2 t).2]; show 0 * 1 + 1 * z.val = z.val; omega

theorem blk_tsq (t : Fin cfg0.N) (p : Fin 1024) (z : Fin 1) :
    (iblk m c 3 t : Vec Ideal S1024x1 .f32) (ix2 p z)
      = (V m c main_call0_v14 : S8192x1.Idx → EReal) (ix2 (rowAt t p) z) := by
  unfold iblk
  rw [View.read_apply]
  show (V m c main_call0_v14 : S8192x1.Idx → EReal) _ = (V m c main_call0_v14 : S8192x1.Idx → EReal) _
  refine congrArg (V m c main_call0_v14 : S8192x1.Idx → EReal) (funext fun a => Fin.ext ?_)
  have hN : cfg0.N = 64 := N_0
  have ht := t.isLt
  match a with
  | ⟨0, _⟩ => show win0_3.index t 0 * 1024 + 1 * p.val = _; rw [(idx_rows3 t).1]; show t.val / 8 * 1024 + 1 * p.val = t.val / 8 * 1024 + p.val; omega
  | ⟨1, _⟩ => show win0_3.index t 1 * 1 + 1 * z.val = _; rw [(idx_rows3 t).2]; show 0 * 1 + 1 * z.val = z.val; omega

theorem blk_weight (t : Fin cfg0.N) (k : Fin 1024) (q : Fin 1024) :
    (iblk m c 4 t : Vec Ideal S1024x1024 .bf16) (ix2 k q)
      = (V m c main_call0_v4 : S1024x8192.Idx → EReal) (ix2 k (colAt t q)) := by
  unfold iblk
  rw [View.read_apply]
  show (V m c main_call0_v4 : S1024x8192.Idx → EReal) _ = (V m c main_call0_v4 : S1024x8192.Idx → EReal) _
  refine congrArg (V m c main_call0_v4 : S1024x8192.Idx → EReal) (funext fun a => Fin.ext ?_)
  have hN : cfg0.N = 64 := N_0
  have ht := t.isLt
  match a with
  | ⟨0, _⟩ => show win0_4.index t 0 * 1024 + 1 * k.val = _; rw [(idx_cols4 t).1]; show 0 * 1024 + 1 * k.val = k.val; omega
  | ⟨1, _⟩ => show win0_4.index t 1 * 1024 + 1 * q.val = _; rw [(idx_cols4 t).2]; show t.val % 8 * 1024 + 1 * q.val = t.val % 8 * 1024 + q.val; omega

theorem blk_codebook (t : Fin cfg0.N) (q : Fin 1024) (k : Fin 1024) :
    (iblk m c 5 t : Vec Ideal S1024x1024 .bf16) (ix2 q k)
      = (V m c main_call0_v5 : S8192x1024.Idx → EReal) (ix2 (colAt t q) k) := by
  unfold iblk
  rw [View.read_apply]
  show (V m c main_call0_v5 : S8192x1024.Idx → EReal) _ = (V m c main_call0_v5 : S8192x1024.Idx → EReal) _
  refine congrArg (V m c main_call0_v5 : S8192x1024.Idx → EReal) (funext fun a => Fin.ext ?_)
  have hN : cfg0.N = 64 := N_0
  have ht := t.isLt
  match a with
  | ⟨0, _⟩ => show win0_5.index t 0 * 1024 + 1 * q.val = _; rw [(idx_cols5 t).1]; show t.val % 8 * 1024 + 1 * q.val = t.val % 8 * 1024 + q.val; omega
  | ⟨1, _⟩ => show win0_5.index t 1 * 1024 + 1 * k.val = _; rw [(idx_cols5 t).2]; show 0 * 1024 + 1 * k.val = k.val; omega

theorem blk_bias (t : Fin cfg0.N) (z : Fin 1) (q : Fin 1024) :
    (iblk m c 6 t : Vec Ideal S1x1024 .f32) (ix2 z q)
      = (V m c main_call0_v15 : S1x8192.Idx → EReal) (ix2 z (colAt t q)) := by
  unfold iblk
  rw [View.read_apply]
  show (V m c main_call0_v15 : S1x8192.Idx → EReal) _ = (V m c main_call0_v15 : S1x8192.Idx → EReal) _
  refine congrArg (V m c main_call0_v15 : S1x8192.Idx → EReal) (funext fun a => Fin.ext ?_)
  have hN : cfg0.N = 64 := N_0
  have ht := t.isLt
  match a with
  | ⟨0, _⟩ => show win0_6.index t 0 * 1 + 1 * z.val = _; rw [(idx_cols6 t).1]; show 0 * 1 + 1 * z.val = z.val; omega
  | ⟨1, _⟩ => show win0_6.index t 1 * 1024 + 1 * q.val = _; rw [(idx_cols6 t).2]; show t.val % 8 * 1024 + 1 * q.val = t.val % 8 * 1024 + q.val; omega

theorem blk_csq (t : Fin cfg0.N) (z : Fin 1) (q : Fin 1024) :
    (iblk m c 7 t : Vec Ideal S1x1024 .f32) (ix2 z q)
      = (V m c main_call0_v18 : S1x8192.Idx → EReal) (ix2 z (colAt t q)) := by
  unfold iblk
  rw [View.read_apply]
  show (V m c main_call0_v18 : S1x8192.Idx → EReal) _ = (V m c main_call0_v18 : S1x8192.Idx → EReal) _
  refine congrArg (V m c main_call0_v18 : S1x8192.Idx → EReal) (funext fun a => Fin.ext ?_)
  have hN : cfg0.N = 64 := N_0
  have ht := t.isLt
  match a with
  | ⟨0, _⟩ => show win0_7.index t 0 * 1 + 1 * z.val = _; rw [(idx_cols7 t).1]; show 0 * 1 + 1 * z.val = z.val; omega
  | ⟨1, _⟩ => show win0_7.index t 1 * 1024 + 1 * q.val = _; rw [(idx_cols7 t).2]; show t.val % 8 * 1024 + 1 * q.val = t.val % 8 * 1024 + q.val; omega

end Cert.KernelIdeal.Blocks

end
-- ==== Proof.Spec.lean ====
/-
  The value both programs compute, as ONE function of the six argument arrays.

  Rows: the `[4, 2048, ·]` arrays are read as `8192` rows, row `R` being batch `R / 2048`, position `R % 2048`.
  For row `R` and codebook column `c`, from the arrays' real parts:
    `logit R c = ∑ₕ hidden[R, h] · W[h, c] + b[c]`,   `crs R c = ∑ₕ target[R, h] · codebook[c, h]`,
    `tsq R = ∑ₕ target[R, h]²`,  `csq c = ∑ₕ codebook[c, h]²`,  `mse R c = ((tsq R - 2 · crs R c) + csq c) / 1024`,
  and the row's loss is the softmax-weighted mean of `mse R ·` with weights `e^(logit R c)`: `S2 R / S1 R` with
  `S1 R = ∑_c e^(logit R c)`, `S2 R = ∑_c e^(logit R c) · mse R c`. The result is the sum over the rows whose token type is
  `1` of the row's loss, times the f32 constant `0.1` (kept as its bit pattern: it is the same word on both sides).
  On finite inputs every array entry IS its real part, which is how the two programs meet this function.
-/
import Idealize.ShloMosaic.Lib.ValueIdx

noncomputable section

open scoped BigOperators

namespace Cert.Spec

open Idealize.ShloMosaic Idealize.ShloMosaic.ValueIdx

/-- Row `R`'s batch. -/
def rowB (R : Fin 8192) : Fin 4 := ⟨R.val / 2048, by have := R.isLt; omega⟩
/-- Row `R`'s position in its batch. -/
def rowS (R : Fin 8192) : Fin 2048 := ⟨R.val % 2048, by omega⟩

variable (x0 : (⟨3, ![4, 2048, 1024]⟩ : Shape).Idx → EReal) (x1 : (⟨2, ![4, 2048]⟩ : Shape).Idx → BitVec 32)
  (x2 : (⟨3, ![4, 2048, 1024]⟩ : Shape).Idx → EReal) (x3 : (⟨2, ![8192, 1024]⟩ : Shape).Idx → EReal)
  (x4 : (⟨2, ![1024, 8192]⟩ : Shape).Idx → EReal) (x5 : (⟨1, ![8192]⟩ : Shape).Idx → EReal)

/-- `hidden[R, h]`. -/
def hid (R : Fin 8192) (h : Fin 1024) : ℝ := (x0 (ix3 (rowB R) (rowS R) h)).toReal
/-- `target[R, h]`. -/
def tgt (R : Fin 8192) (h : Fin 1024) : ℝ := (x2 (ix3 (rowB R) (rowS R) h)).toReal
/-- `codebook[c, h]`. -/
def cbk (c : Fin 8192) (h : Fin 1024) : ℝ := (x3 (ix2 c h)).toReal
/-- `W[h, c]`. -/
def wgt (h : Fin 1024) (c : Fin 8192) : ℝ := (x4 (ix2 h c)).toReal
/-- `b[c]`. -/
def bias (c : Fin 8192) : ℝ := (x5 (ix1 c)).toReal
/-- `1` where row `R`'s token type is `1`, else `0`. -/
def msk (R : Fin 8192) : ℝ := ((IntOp.cmpi .eq (x1 (ix2 (rowB R) (rowS R))) 1#32).toNat : ℝ)

def logit (R c : Fin 8192) : ℝ := ∑ h, hid x0 R h * wgt x4 h c + bias x5 c
def crs (R c : Fin 8192) : ℝ := ∑ h, tgt x2 R h * cbk x3 c h
def tsq (R : Fin 8192) : ℝ := ∑ h, tgt x2 R h * tgt x2 R h
def csq (c : Fin 8192) : ℝ := ∑ h, cbk x3 c h * cbk x3 c h
def mse (R c : Fin 8192) : ℝ := ((tsq x2 R - 2 * crs x2 x3 R c) + csq x3 c) / 1024
def S1 (R : Fin 8192) : ℝ := ∑ c, Real.exp (logit x0 x4 x5 R c)
def S2 (R : Fin 8192) : ℝ := ∑ c, Real.exp (logit x0 x4 x5 R c) * mse x2 x3 R c
/-- The masked sum of the rows' losses. -/
def total : ℝ := ∑ R, msk x1 R * (S2 x0 x2 x3 x4 x5 R / S1 x0 x4 x5 R)

/-- The result: one scalar. -/
def G : (⟨0, ![]⟩ : Shape).Idx → EReal := fun _ => (total x0 x1 x2 x3 x4 x5 : EReal) * Ideal.ofBits .f32 0x3DCCCCCD#32

theorem S1_pos (R : Fin 8192) : 0 < S1 x0 x4 x5 R :=
  Finset.sum_pos (fun _ _ => Real.exp_pos _) ⟨⟨0, by norm_num⟩, Finset.mem_univ _⟩

end Cert.Spec

end
-- ==== Proof.ArraysAt.lean ====
import proofs.«174575_j62972810494575_2_alg».proof.Proof.Gen.KernelIdeal.Frame
import proofs.«174575_j62972810494575_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

/-!
  The eight operand arrays as the region finds them, read at an index of the argument arrays.

  Before the region the host flattens the `[4, 2048, ·]` arrays to `8192` rows (row `R` is batch `R / 2048`, position
  `R % 2048`: the same row-major position), changes formats (the identity here), compares the token types with `1`, and
  sums the squares of the target rows and of the codebook rows. So at row `R`, column `c`, contraction index `k`:
  hidden`[R, k]`, target`[R, k]`, mask`[R]`, `0 + ∑ₖ target[R, k]²`, W`[k, c]`, codebook`[c, k]`, b`[c]`, `0 + ∑ₖ codebook[c, k]²`.
-/

namespace Cert.KernelIdeal.Arrays

open Cert.KernelIdeal Cert.KernelIdeal.Gen Cert.Spec

variable (m : (ℓ : Loc nD τ sig) → Buf (Elt Ideal) ℓ) (c : Dev nD)

/-- The six argument arrays as launched, with their value types spelt out. -/
abbrev A0 : S4x2048x1024.Idx → EReal := m ((c : Thread nD τ).loc main_arg0)
abbrev A1 : S4x2048.Idx → BitVec 32 := m ((c : Thread nD τ).loc main_arg1)
abbrev A2 : S4x2048x1024.Idx → EReal := m ((c : Thread nD τ).loc main_arg2)
abbrev A3 : S8192x1024.Idx → EReal := m ((c : Thread nD τ).loc main_arg3)
abbrev A4 : S1024x8192.Idx → EReal := m ((c : Thread nD τ).loc main_arg4)
abbrev A5 : S8192.Idx → EReal := m ((c : Thread nD τ).loc main_arg5)

/-- A `[4, 2048, 1024]` array flattened to `[8192, 1024]`, at `(R, k)`. -/
theorem flat3_at {α : Type} (x : S4x2048x1024.Idx → α) (h : S4x2048x1024.ShapeCasts S8192x1024) (R : Fin 8192) (k : Fin 1024) :
    shapeCast S8192x1024 x h (ix2 R k) = x (ix3 (rowB R) (rowS R) k) :=
  shapeCast_apply x h _ _ (by
    rw [Shape.rowMajor_val_three, Shape.rowMajor_val_two]
    show (R.val / 2048 * 2048 + R.val % 2048) * 1024 + k.val = R.val * 1024 + k.val
    omega)

/-- A `[4, 2048]` array flattened to `[8192]`, at `R`. -/
theorem flat2_at {α : Type} (x : S4x2048.Idx → α) (h : S4x2048.ShapeCasts S8192) (R : Fin 8192) :
    shapeCast S8192 x h (ix1 R) = x (ix2 (rowB R) (rowS R)) :=
  shapeCast_apply x h _ _ (by
    rw [Shape.rowMajor_val_two, Shape.rowMajor_val_one]
    show R.val / 2048 * 2048 + R.val % 2048 = R.val
    omega)

/-- A length-8192 vector as a column, at row `R`. -/
theorem col_at {α : Type} (x : S8192.Idx → α) (h : S8192.ShapeCasts S8192x1) (R : Fin 8192) :
    shapeCast S8192x1 x h (ix2 R (0 : Fin 1)) = x (ix1 R) :=
  shapeCast_apply x h _ _ (by rw [Shape.rowMajor_val_one, Shape.rowMajor_val_two]; show R.val = R.val * 1 + 0; omega)

/-- A length-8192 vector as a row, at column `q`. -/
theorem row_at {α : Type} (x : S8192.Idx → α) (h : S8192.ShapeCasts S1x8192) (q : Fin 8192) :
    shapeCast S1x8192 x h (ix2 (0 : Fin 1) q) = x (ix1 q) :=
  shapeCast_apply x h _ _ (by rw [Shape.rowMajor_val_one, Shape.rowMajor_val_two]; show q.val = 0 * 8192 + q.val; omega)

/-- A row sum of a `[8192, 1024]` array on the host: the initial value plus the row's entries. -/
theorem hostRowSum_at (x : FVec Ideal S8192x1024 .f32) (v : FVec Ideal S_ .f32) (R : Fin 8192) :
    Host.reduceAdd x v reducesTo_S8192x1024_S8192_d1 h_S_ (ix1 R) = v (Shape.Idx.first h_S_) + ∑ k : Fin 1024, x (ix2 R k) := by
  simp only [Host.reduceAdd, Ideal.hostReduceAdd_def]
  rw [Ideal.hostReduceAdd_single reducesTo_S8192x1024_S8192_d1 (by decide)]
  refine congrArg (_ + ·) (Finset.sum_congr rfl fun k _ => ?_)
  exact congrArg x (funext fun a => Fin.ext (by match a with | ⟨0, _⟩ => rfl | ⟨1, _⟩ => rfl))

/-! ## The arrays -/

theorem V_hidden : (V m c main_call0_v1 : S8192x1024.Idx → EReal)
    = truncf (F := Ideal) .bf16 (shapeCast S8192x1024 (A0 m c) shapeCasts_S4x2048x1024_S8192x1024 : FVec Ideal S8192x1024 .f32) bitsLt_bf16_f32 := by
  show StableHlo.after hostOps0 (fun b => m (c, b)) (Proc.devRef .tc main_call0_v1) = _
  after_results
  rfl

theorem V_target : (V m c main_call0_v3 : S8192x1024.Idx → EReal)
    = truncf (F := Ideal) .bf16 (shapeCast S8192x1024 (A2 m c) shapeCasts_S4x2048x1024_S8192x1024 : FVec Ideal S8192x1024 .f32) bitsLt_bf16_f32 := by
  show StableHlo.after hostOps0 (fun b => m (c, b)) (Proc.devRef .tc main_call0_v3) = _
  after_results
  rfl

theorem V_mask : (V m c main_call0_v10 : S8192x1.Idx → EReal)
    = shapeCast S8192x1 (uitofp (F := Ideal) .f32 (cmpi .eq (shapeCast S8192 (A1 m c) shapeCasts_S4x2048_S8192)
        (broadcastInDim S8192 ![] bcast_S_S8192 (constantI S_ 32 1#32)))) shapeCasts_S8192_S8192x1 := by
  show StableHlo.after hostOps0 (fun b => m (c, b)) (Proc.devRef .tc main_call0_v10) = _
  after_results
  rfl

theorem V_tsq : (V m c main_call0_v14 : S8192x1.Idx → EReal)
    = broadcastInDim S8192x1 ![0] bcast_S8192_S8192x1_0
        (Host.reduceAdd (F := Ideal) (mulf (shapeCast S8192x1024 (A2 m c) shapeCasts_S4x2048x1024_S8192x1024)
            (shapeCast S8192x1024 (A2 m c) shapeCasts_S4x2048x1024_S8192x1024))
          (constant (F := Ideal) S_ .f32 0x00000000#32) reducesTo_S8192x1024_S8192_d1 h_S_) := by
  show StableHlo.after hostOps0 (fun b => m (c, b)) (Proc.devRef .tc main_call0_v14) = _
  after_results
  rfl

theorem V_weight : (V m c main_call0_v4 : S1024x8192.Idx → EReal)
    = truncf (F := Ideal) .bf16 (A4 m c : FVec Ideal S1024x8192 .f32) bitsLt_bf16_f32 := by
  show StableHlo.after hostOps0 (fun b => m (c, b)) (Proc.devRef .tc main_call0_v4) = _
  after_results
  rfl

theorem V_codebook : (V m c main_call0_v5 : S8192x1024.Idx → EReal)
    = truncf (F := Ideal) .bf16 (A3 m c : FVec Ideal S8192x1024 .f32) bitsLt_bf16_f32 := by
  show StableHlo.after hostOps0 (fun b => m (c, b)) (Proc.devRef .tc main_call0_v5) = _
  after_results
  rfl

theorem V_bias : (V m c main_call0_v15 : S1x8192.Idx → EReal)
    = shapeCast S1x8192 (A5 m c) shapeCasts_S8192_S1x8192 := by
  show StableHlo.after hostOps0 (fun b => m (c, b)) (Proc.devRef .tc main_call0_v15) = _
  after_results
  rfl

theorem V_csq : (V m c main_call0_v18 : S1x8192.Idx → EReal)
    = shapeCast S1x8192 (Host.reduceAdd (F := Ideal) (mulf (A3 m c) (A3 m c))
        (constant (F := Ideal) S_ .f32 0x00000000#32) reducesTo_S8192x1024_S8192_d1 h_S_) shapeCasts_S8192_S1x8192 := by
  show StableHlo.after hostOps0 (fun b => m (c, b)) (Proc.devRef .tc main_call0_v18) = _
  after_results
  rfl

/-! ## … read at an index -/

theorem hidden_at (R : Fin 8192) (k : Fin 1024) :
    (V m c main_call0_v1 : S8192x1024.Idx → EReal) (ix2 R k) = A0 m c (ix3 (rowB R) (rowS R) k) :=
  (congrFun (V_hidden m c) (ix2 R k)).trans (flat3_at _ _ R k)

theorem target_at (R : Fin 8192) (k : Fin 1024) :
    (V m c main_call0_v3 : S8192x1024.Idx → EReal) (ix2 R k) = A2 m c (ix3 (rowB R) (rowS R) k) :=
  (congrFun (V_target m c) (ix2 R k)).trans (flat3_at _ _ R k)

theorem weight_at (k : Fin 1024) (q : Fin 8192) :
    (V m c main_call0_v4 : S1024x8192.Idx → EReal) (ix2 k q) = A4 m c (ix2 k q) :=
  congrFun (V_weight m c) (ix2 k q)

theorem codebook_at (q : Fin 8192) (k : Fin 1024) :
    (V m c main_call0_v5 : S8192x1024.Idx → EReal) (ix2 q k) = A3 m c (ix2 q k) :=
  congrFun (V_codebook m c) (ix2 q k)

theorem bias_at (q : Fin 8192) :
    (V m c main_call0_v15 : S1x8192.Idx → EReal) (ix2 (0 : Fin 1) q) = A5 m c (ix1 q) :=
  (congrFun (V_bias m c) (ix2 (0 : Fin 1) q)).trans (row_at _ _ q)

theorem mask_at (R : Fin 8192) :
    (V m c main_call0_v10 : S8192x1.Idx → EReal) (ix2 R (0 : Fin 1)) = ((msk (A1 m c) R : ℝ) : EReal) := by
  refine (congrFun (V_mask m c) (ix2 R (0 : Fin 1))).trans ?_
  rw [col_at]
  show (((IntOp.cmpi .eq (shapeCast S8192 (A1 m c) shapeCasts_S4x2048_S8192 (ix1 R))
      (broadcastInDim S8192 ![] bcast_S_S8192 (constantI S_ 32 1#32) (ix1 R))).toNat : ℝ) : EReal) = _
  rw [flat2_at, broadcastInDim_apply _ bcast_S_S8192 _ (ix1 R) (fun a => a.elim0) (fun a => a.elim0)]
  rfl

theorem tsq_at (R : Fin 8192) :
    (V m c main_call0_v14 : S8192x1.Idx → EReal) (ix2 R (0 : Fin 1))
      = 0 + ∑ k : Fin 1024, A2 m c (ix3 (rowB R) (rowS R) k) * A2 m c (ix3 (rowB R) (rowS R) k) := by
  refine (congrFun (V_tsq m c) (ix2 R (0 : Fin 1))).trans ?_
  rw [broadcastInDim_apply _ bcast_S8192_S8192x1_0 _ (ix2 R (0 : Fin 1)) (ix1 R) (fun a => by
    match a with
    | ⟨0, _⟩ => show R.val = if (8192 : ℕ) = 1 then 0 else R.val; rw [if_neg (by norm_num)])]
  rw [hostRowSum_at]
  refine congrArg₂ (· + ·) Ideal.ofBits_zero_f32 (Finset.sum_congr rfl fun k _ => ?_)
  show shapeCast S8192x1024 _ _ (ix2 R k) * shapeCast S8192x1024 _ _ (ix2 R k) = _
  rw [flat3_at]

theorem csq_at (q : Fin 8192) :
    (V m c main_call0_v18 : S1x8192.Idx → EReal) (ix2 (0 : Fin 1) q)
      = 0 + ∑ k : Fin 1024, A3 m c (ix2 q k) * A3 m c (ix2 q k) := by
  refine (congrFun (V_csq m c) (ix2 (0 : Fin 1) q)).trans ?_
  rw [row_at, hostRowSum_at]
  exact congrArg₂ (· + ·) Ideal.ofBits_zero_f32 rfl

end Cert.KernelIdeal.Arrays

end
-- ==== Proof.LibRsqrtBlocks.lean ====
/-
  Two general facts about the extended reals, with no program in sight.

  * `Cert.Lib.mul_rsqrt_eq_div_sqrt`: at the ideal instance, a value times the reciprocal square root of `v` is the value
    divided by the square root of `v`, for EVERY extended real value and every `0 < v ≤ +∞` (at `v = +∞` both sides are
    `0`). With `Cert.Lib.mul_self_nonneg` (a square is nonnegative, infinite values included) this joins a normaliser
    written `(x − mean) · rsqrt (var + ε)` to one written `(x − mean) / sqrt (var + ε)` without any finiteness: a variance
    is a sum of squares over a positive real, so `var + ε > 0` for `ε > 0`.
  * `Cert.Lib.sum_blocks` / `Cert.Lib.sum_div_mod`: a sum over `N = a · b` consecutive indices is the double sum over `a`
    blocks of `b` (`Cert.Lib.blockEquiv a b : Fin a × Fin b ≃ Fin N`, `(i, j) ↦ i · b + j`, inverse `k ↦ (k / b, k % b)`):
    a contraction accumulated block by block over a grid axis against one whole contraction, or heads laid side by
    side against the concatenated lanes. Stated for sums in the extended reals; only commutativity and associativity
    of `+` are used.

  Imports only the ideal instance's operations.
-/
import Idealize.ShloMosaic.PureOps.Ideal

noncomputable section

open scoped BigOperators

namespace Cert.Lib

open Idealize.ShloMosaic

/-- A square is nonnegative on the extended reals: `(±∞)·(±∞) = +∞`. -/
theorem mul_self_nonneg (y : EReal) : 0 ≤ y * y := by
  induction y using EReal.rec with
  | bot => simp [EReal.bot_mul_bot]
  | top => simp [EReal.top_mul_top]
  | coe r => rw [← EReal.coe_mul]; exact_mod_cast _root_.mul_self_nonneg r

/-- Times the reciprocal square root is over the square root, for every `x` and every `0 < v ≤ +∞`. -/
theorem mul_rsqrt_eq_div_sqrt (x v : EReal) (hv : 0 < v) : x * Ideal.rsqrt v = Ideal.div x (Ideal.sqrt v) := by
  induction v using EReal.rec with
  | bot => exact absurd hv (by simp)
  | top =>
    show x * (0 : EReal) = Ideal.div x ⊤
    rw [mul_zero, Ideal.div, if_neg EReal.top_ne_zero, EReal.inv_top, mul_zero]
  | coe r =>
    have hr : 0 < r := by exact_mod_cast hv
    have hs : Real.sqrt r ≠ 0 := (Real.sqrt_pos.mpr hr).ne'
    have hs' : ((Real.sqrt r : ℝ) : EReal) ≠ 0 := by exact_mod_cast hs
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div, if_neg hs', EReal.coe_inv]

/-! ## A long sum as blocks -/

/-- `a` blocks of `b` consecutive indices. -/
def blockEquiv {N : ℕ} (a b : ℕ) (hb : 0 < b) (hN : N = a * b) : Fin a × Fin b ≃ Fin N where
  toFun p := ⟨p.1.val * b + p.2.val, by
    subst hN
    calc p.1.val * b + p.2.val < p.1.val * b + b := Nat.add_lt_add_left p.2.isLt _
      _ = (p.1.val + 1) * b := (Nat.succ_mul _ _).symm
      _ ≤ a * b := Nat.mul_le_mul_right _ p.1.isLt⟩
  invFun k := (⟨k.val / b, (Nat.div_lt_iff_lt_mul hb).mpr (hN ▸ k.isLt)⟩, ⟨k.val % b, Nat.mod_lt _ hb⟩)
  left_inv p := by
    refine Prod.ext (Fin.ext ?_) (Fin.ext ?_)
    · show (p.1.val * b + p.2.val) / b = p.1.val
      rw [Nat.add_comm, Nat.add_mul_div_right _ _ hb, Nat.div_eq_of_lt p.2.isLt, Nat.zero_add]
    · show (p.1.val * b + p.2.val) % b = p.2.val
      rw [Nat.add_comm, Nat.add_mul_mod_self_right, Nat.mod_eq_of_lt p.2.isLt]
  right_inv k := Fin.ext (Nat.div_add_mod' k.val b)

/-- A sum over `a · b` consecutive indices, block by block. -/
theorem sum_blocks {N : ℕ} (a b : ℕ) (hb : 0 < b) (hN : N = a * b) (f : Fin N → EReal) :
    ∑ k, f k = ∑ i : Fin a, ∑ j : Fin b, f (blockEquiv a b hb hN (i, j)) := by
  rw [← (blockEquiv a b hb hN).sum_comp, Fintype.sum_prod_type]

/-- The same with the summand written over (block, position): `k` is in block `k / b` at position `k % b`. -/
theorem sum_div_mod {N : ℕ} (a b : ℕ) (hb : 0 < b) (hN : N = a * b) (g : Fin a → Fin b → EReal) :
    ∑ k : Fin N, g ((blockEquiv a b hb hN).symm k).1 ((blockEquiv a b hb hN).symm k).2 = ∑ i : Fin a, ∑ j : Fin b, g i j := by
  rw [sum_blocks a b hb hN]
  refine Finset.sum_congr rfl fun i _ => Finset.sum_congr rfl fun j _ => ?_
  rw [Equiv.symm_apply_apply]

end Cert.Lib

end
-- ==== Proof.Tiles.lean ====
import proofs.«174575_j62972810494575_2_alg».proof.Proof.Spec
import proofs.«174575_j62972810494575_2_alg».proof.Proof.LibRsqrtBlocks

noncomputable section

open scoped BigOperators

/-!
  Sums over `8192 = 8 · 1024` indices taken tile by tile: index `1024 · j + q` is position `q` of tile `j`. `part f n` is the
  sum of `f` over the first `n` tiles; it is `0` at `n = 0`, grows by `f j` from `j` to `j + 1`, and at `n = 8` is the whole sum.
  With that, the specification's two column sums of a row are `part` at `8` of the per-tile sums `tileE` and `tileEW`.
-/

namespace Cert.Tiles

open Cert.Spec

/-- Position `q` of tile `j`. -/
def at8 (j : Fin 8) (q : Fin 1024) : Fin 8192 := ⟨j.val * 1024 + q.val, by have := j.isLt; have := q.isLt; omega⟩

/-- A sum over the `8192` indices, tile by tile. -/
theorem sum_tiles (f : Fin 8192 → ℝ) : ∑ c, f c = ∑ j : Fin 8, ∑ q : Fin 1024, f (at8 j q) := by
  rw [← (Cert.Lib.blockEquiv 8 1024 (by norm_num) (by norm_num : 8192 = 8 * 1024)).sum_comp, Fintype.sum_prod_type]
  rfl

/-- The sum of `f` over the first `n` tiles. -/
def part (f : Fin 8 → ℝ) (n : ℕ) : ℝ := ∑ j : Fin 8, if j.val < n then f j else 0

theorem part_zero (f : Fin 8 → ℝ) : part f 0 = 0 := by
  unfold part
  exact Finset.sum_eq_zero fun j _ => if_neg (Nat.not_lt_zero _)

theorem part_succ (f : Fin 8 → ℝ) (j : Fin 8) : part f (j.val + 1) = part f j.val + f j := by
  unfold part
  have e : ∀ j' : Fin 8, (if j'.val < j.val + 1 then f j' else 0) = (if j'.val < j.val then f j' else 0) + (if j' = j then f j' else 0) := by
    intro j'
    by_cases h1 : j'.val < j.val
    · have h2 : j' ≠ j := fun h => by rw [h] at h1; exact lt_irrefl _ h1
      rw [if_pos h1, if_pos (Nat.lt_succ_of_lt h1), if_neg h2, add_zero]
    · by_cases h2 : j' = j
      · subst h2; rw [if_neg h1, if_pos (Nat.lt_succ_self _), if_pos rfl, zero_add]
      · have h3 : ¬ j'.val < j.val + 1 := fun h => h2 (Fin.ext (by omega))
        rw [if_neg h1, if_neg h3, if_neg h2, add_zero]
  rw [Finset.sum_congr rfl (fun j' _ => e j'), Finset.sum_add_distrib, Finset.sum_ite_eq' Finset.univ j f, if_pos (Finset.mem_univ _)]

theorem part_one (f : Fin 8 → ℝ) : part f 1 = f 0 := by
  have := part_succ f 0
  rwa [show (0 : Fin 8).val + 1 = 1 from rfl, show (0 : Fin 8).val = 0 from rfl, part_zero, zero_add] at this

theorem part_full (f : Fin 8 → ℝ) : part f 8 = ∑ j, f j := by
  unfold part
  exact Finset.sum_congr rfl fun j _ => if_pos j.isLt

section
variable (x0 : (⟨3, ![4, 2048, 1024]⟩ : Idealize.ShloMosaic.Shape).Idx → EReal)
  (x2 : (⟨3, ![4, 2048, 1024]⟩ : Idealize.ShloMosaic.Shape).Idx → EReal) (x3 : (⟨2, ![8192, 1024]⟩ : Idealize.ShloMosaic.Shape).Idx → EReal)
  (x4 : (⟨2, ![1024, 8192]⟩ : Idealize.ShloMosaic.Shape).Idx → EReal) (x5 : (⟨1, ![8192]⟩ : Idealize.ShloMosaic.Shape).Idx → EReal)

/-- Tile `j`'s plain exponentials of row `R`'s logits. -/
def tileE (R : Fin 8192) (j : Fin 8) : ℝ := ∑ q : Fin 1024, Real.exp (logit x0 x4 x5 R (at8 j q))
/-- … weighted by the mean squared distances. -/
def tileEW (R : Fin 8192) (j : Fin 8) : ℝ := ∑ q : Fin 1024, Real.exp (logit x0 x4 x5 R (at8 j q)) * mse x2 x3 R (at8 j q)

theorem S1_tiles (R : Fin 8192) : S1 x0 x4 x5 R = part (tileE x0 x4 x5 R) 8 := by
  rw [part_full]; exact sum_tiles _
theorem S2_tiles (R : Fin 8192) : S2 x0 x2 x3 x4 x5 R = part (tileEW x0 x2 x3 x4 x5 R) 8 := by
  rw [part_full]; exact sum_tiles _
end

end Cert.Tiles

end
-- ==== Proof.Invariant.lean ====
import proofs.«174575_j62972810494575_2_alg».proof.Proof.Pieces
import proofs.«174575_j62972810494575_2_alg».proof.Proof.StepReal
import proofs.«174575_j62972810494575_2_alg».proof.Proof.BlocksAt
import proofs.«174575_j62972810494575_2_alg».proof.Proof.ArraysAt
import proofs.«174575_j62972810494575_2_alg».proof.Proof.Tiles

noncomputable section

open scoped BigOperators
open Idealize.ShloMosaic Idealize.ShloMosaic.TcCoe Idealize.SL.Sem Idealize.ShloMosaic.ValueIdx

/-!
  The sweep over the grid, point by point.

  When every float argument entry is its real part (`RealArgs`), the blocks a point reads are real on every row
  (`rowReal_at`), so each point moves the row invariant on by its column tile's terms. By induction on the point: after point
  `t` (row tile `t / 8`, column tile `t % 8`), on every row `p` of the tile the three carried columns are reals `m, l, acc`
  with `l · e^m` and `acc · e^m` the sums of `e^(logit)` and of `e^(logit) · mse` over the column tiles `0 … t % 8` (`inv_at`).
-/

namespace Cert.KernelIdeal.Sweep

open Cert.KernelIdeal Cert.KernelIdeal.Gen Cert.KernelIdeal.Arrays Cert.KernelIdeal.Blocks Cert.KernelIdeal.At
open Cert.Spec Cert.Tiles Cert.Lib

variable (m : (ℓ : Loc nD τ sig) → Buf (Elt Ideal) ℓ) (c : Dev nD)

/-- Every float argument entry is its real part: what finite inputs give. -/
structure RealArgs : Prop where
  h0 : ∀ i, A0 m c i = ((A0 m c i).toReal : EReal)
  h2 : ∀ i, A2 m c i = ((A2 m c i).toReal : EReal)
  h3 : ∀ i, A3 m c i = ((A3 m c i).toReal : EReal)
  h4 : ∀ i, A4 m c i = ((A4 m c i).toReal : EReal)
  h5 : ∀ i, A5 m c i = ((A5 m c i).toReal : EReal)

/-- The column tile of point `t`. -/
def tileOf (t : Fin cfg0.N) : Fin 8 := ⟨t.val % 8, Nat.mod_lt _ (by norm_num)⟩

/-! ## What each case leaves, at the point's blocks -/

theorem left_at_A (t : Fin cfg0.N) (h0 : t.val % 8 = 0) (h1 : ¬t.val % 8 = 7) :
    (outsAt0 m c t.val t.isLt).2.1 = shiftNext (F := Ideal) (iblk m c 0 t) (iblk m c 4 t) (iblk m c 6 t) (k0_pay5 (F := Ideal))
    ∧ (outsAt0 m c t.val t.isLt).2.2.1 = normNext (F := Ideal) (iblk m c 0 t) (iblk m c 4 t) (iblk m c 6 t) (k0_pay5 (F := Ideal)) (k0_pay6 (F := Ideal))
    ∧ (outsAt0 m c t.val t.isLt).2.2.2 = accNext (F := Ideal) (iblk m c 0 t) (iblk m c 1 t) (iblk m c 3 t) (iblk m c 4 t) (iblk m c 5 t) (iblk m c 6 t) (iblk m c 7 t) (k0_pay5 (F := Ideal)) (k0_pay7 (F := Ideal)) := by
  rw [outsAt0_A m c t h0 h1]
  refine ⟨?_, ?_, ?_⟩
  · dsimp only; exact left_A_0 (F := Ideal) ..
  · dsimp only; exact left_A_1 (F := Ideal) ..
  · dsimp only; exact left_A_2 (F := Ideal) ..

theorem left_at_B (t : Fin cfg0.N) (h0 : ¬t.val % 8 = 0) (h1 : ¬t.val % 8 = 7) :
    (outsAt0 m c t.val t.isLt).2.1 = shiftNext (F := Ideal) (iblk m c 0 t) (iblk m c 4 t) (iblk m c 6 t) (outsAt0 m c (t.val - 1) (Nat.lt_of_le_of_lt (Nat.sub_le _ _) t.isLt)).2.1
    ∧ (outsAt0 m c t.val t.isLt).2.2.1 = normNext (F := Ideal) (iblk m c 0 t) (iblk m c 4 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2
        = accNext (F := Ideal) (iblk m c 0 t) (iblk m c 1 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2 := by
  rw [outsAt0_B m c t h0 h1]
  refine ⟨?_, ?_, ?_⟩
  · dsimp only; exact left_B_0 (F := Ideal) ..
  · dsimp only; exact left_B_1 (F := Ideal) ..
  · dsimp only; exact left_B_2 (F := Ideal) ..

theorem left_at_C (t : Fin cfg0.N) (h0 : ¬t.val % 8 = 0) (h1 : t.val % 8 = 7) :
    (outsAt0 m c t.val t.isLt).2.1 = shiftNext (F := Ideal) (iblk m c 0 t) (iblk m c 4 t) (iblk m c 6 t) (outsAt0 m c (t.val - 1) (Nat.lt_of_le_of_lt (Nat.sub_le _ _) t.isLt)).2.1
    ∧ (outsAt0 m c t.val t.isLt).2.2.1 = normNext (F := Ideal) (iblk m c 0 t) (iblk m c 4 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2
        = accNext (F := Ideal) (iblk m c 0 t) (iblk m c 1 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2
    ∧ (outsAt0 m c t.val t.isLt).1
        = blockOut (F := Ideal) (iblk m c 2 t)
            (accNext (F := Ideal) (iblk m c 0 t) (iblk m c 1 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2)
            (normNext (F := Ideal) (iblk m c 0 t) (iblk m c 4 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1) := by
  rw [outsAt0_C m c t h0 h1]
  refine ⟨?_, ?_, ?_, ?_⟩
  · dsimp only; exact left_C_0 (F := Ideal) ..
  · dsimp only; exact left_C_1 (F := Ideal) ..
  · dsimp only; exact left_C_2 (F := Ideal) ..
  · dsimp only; exact left_C_out (F := Ideal) ..

/-! ## The blocks are real -/

variable {m c}
variable (hf : RealArgs m c)
include hf

theorem rowReal_at (t : Fin cfg0.N) (p : Fin 1024) :
    RowReal (iblk m c 0 t) (iblk m c 1 t) (iblk m c 4 t) (iblk m c 5 t) (iblk m c 3 t) (iblk m c 6 t) (iblk m c 7 t) p
      (hid (A0 m c) (rowAt t p)) (tgt (A2 m c) (rowAt t p)) (fun k q => wgt (A4 m c) k (colAt t q)) (fun q k => cbk (A3 m c) (colAt t q) k)
      (fun q => bias (A5 m c) (colAt t q)) (fun q => csq (A3 m c) (colAt t q)) (tsq (A2 m c) (rowAt t p)) where
  h0 k := by rw [blk_hidden, hidden_at]; exact hf.h0 _
  h1 k := by rw [blk_target, target_at]; exact hf.h2 _
  h3 := by
    rw [blk_tsq, tsq_at, zero_add]
    unfold tsq
    rw [coe_sum]
    exact Finset.sum_congr rfl fun k _ => (congrArg₂ (· * ·) (hf.h2 _) (hf.h2 _)).trans (EReal.coe_mul _ _).symm
  h4 k q := by rw [blk_weight, weight_at]; exact hf.h4 _
  h5 q k := by rw [blk_codebook, codebook_at]; exact hf.h3 _
  h6 q := by rw [blk_bias, bias_at]; exact hf.h5 _
  h7 q := by
    rw [blk_csq, csq_at, zero_add]
    unfold csq
    rw [coe_sum]
    exact Finset.sum_congr rfl fun k _ => (congrArg₂ (· * ·) (hf.h3 _) (hf.h3 _)).trans (EReal.coe_mul _ _).symm

/-- The tile's terms, in the specification's words. -/
theorem tile_terms (t : Fin cfg0.N) (p : Fin 1024) :
    (∑ q, Real.exp (lam (hid (A0 m c) (rowAt t p)) (fun k q => wgt (A4 m c) k (colAt t q)) (fun q => bias (A5 m c) (colAt t q)) q))
        = tileE (A0 m c) (A4 m c) (A5 m c) (rowAt t p) (tileOf t)
    ∧ (∑ q, Real.exp (lam (hid (A0 m c) (rowAt t p)) (fun k q => wgt (A4 m c) k (colAt t q)) (fun q => bias (A5 m c) (colAt t q)) q)
          * wt (tgt (A2 m c) (rowAt t p)) (fun q k => cbk (A3 m c) (colAt t q) k) (fun q => csq (A3 m c) (colAt t q)) (tsq (A2 m c) (rowAt t p)) q)
        = tileEW (A0 m c) (A2 m c) (A3 m c) (A4 m c) (A5 m c) (rowAt t p) (tileOf t) :=
  ⟨rfl, rfl⟩

/-- A row tile's first point. -/
theorem inv_first (t : Fin cfg0.N) (h0 : t.val % 8 = 0) (p : Fin 1024) :
    RowInv ((outsAt0 m c t.val t.isLt).2.1 (ix2 p (0 : Fin 1))) ((outsAt0 m c t.val t.isLt).2.2.1 (ix2 p (0 : Fin 1)))
      ((outsAt0 m c t.val t.isLt).2.2.2 (ix2 p (0 : Fin 1)))
      (part (tileE (A0 m c) (A4 m c) (A5 m c) (rowAt t p)) (t.val % 8 + 1))
      (part (tileEW (A0 m c) (A2 m c) (A3 m c) (A4 m c) (A5 m c) (rowAt t p)) (t.val % 8 + 1)) := by
  have h1 : ¬t.val % 8 = 7 := by omega
  obtain ⟨e1, e2, e3⟩ := left_at_A m c t h0 h1
  rw [e1, e2, e3]
  have hs := step_first (rowReal_at hf t p)
  rw [(tile_terms hf t p).1, (tile_terms hf t p).2] at hs
  have hj : (tileOf t).val = 0 := h0
  rw [show t.val % 8 + 1 = (tileOf t).val + 1 from rfl, part_succ, part_succ, hj, part_zero, part_zero, zero_add, zero_add]
  exact hs

/-- A later point of a row tile, from what the point before left. -/
theorem inv_later (t : Fin cfg0.N) (h0 : ¬t.val % 8 = 0) (p : Fin 1024) {S1 S2 : ℝ}
    (ih : RowInv ((outsAt0 m c (t.val - 1) (Nat.lt_of_le_of_lt (Nat.sub_le _ _) t.isLt)).2.1 (ix2 p (0 : Fin 1))) ((outsAt0 m c (t.val - 1) (Nat.lt_of_le_of_lt (Nat.sub_le _ _) t.isLt)).2.2.1 (ix2 p (0 : Fin 1)))
      ((outsAt0 m c (t.val - 1) (Nat.lt_of_le_of_lt (Nat.sub_le _ _) t.isLt)).2.2.2 (ix2 p (0 : Fin 1))) S1 S2) :
    RowInv ((outsAt0 m c t.val t.isLt).2.1 (ix2 p (0 : Fin 1))) ((outsAt0 m c t.val t.isLt).2.2.1 (ix2 p (0 : Fin 1)))
      ((outsAt0 m c t.val t.isLt).2.2.2 (ix2 p (0 : Fin 1)))
      (S1 + tileE (A0 m c) (A4 m c) (A5 m c) (rowAt t p) (tileOf t))
      (S2 + tileEW (A0 m c) (A2 m c) (A3 m c) (A4 m c) (A5 m c) (rowAt t p) (tileOf t)) := by
  have hs := step_later (rowReal_at hf t p) (ms := (outsAt0 m c (t.val - 1) (Nat.lt_of_le_of_lt (Nat.sub_le _ _) t.isLt)).2.1) (ls := (outsAt0 m c (t.val - 1) (Nat.lt_of_le_of_lt (Nat.sub_le _ _) t.isLt)).2.2.1) (accs := (outsAt0 m c (t.val - 1) (Nat.lt_of_le_of_lt (Nat.sub_le _ _) t.isLt)).2.2.2) ih
  rw [(tile_terms hf t p).1, (tile_terms hf t p).2] at hs
  by_cases h1 : t.val % 8 = 7
  · obtain ⟨e1, e2, e3, _⟩ := left_at_C m c t h0 h1
    rw [e1, e2, e3]; exact hs
  · obtain ⟨e1, e2, e3⟩ := left_at_B m c t h0 h1
    rw [e1, e2, e3]; exact hs

/-- After every point, on every row of its tile. -/
theorem inv_at : ∀ (n : ℕ) (hn : n < cfg0.N) (p : Fin 1024),
    RowInv ((outsAt0 m c n hn).2.1 (ix2 p (0 : Fin 1))) ((outsAt0 m c n hn).2.2.1 (ix2 p (0 : Fin 1)))
      ((outsAt0 m c n hn).2.2.2 (ix2 p (0 : Fin 1)))
      (part (tileE (A0 m c) (A4 m c) (A5 m c) (rowAt ⟨n, hn⟩ p)) (n % 8 + 1))
      (part (tileEW (A0 m c) (A2 m c) (A3 m c) (A4 m c) (A5 m c) (rowAt ⟨n, hn⟩ p)) (n % 8 + 1)) := by
  intro n
  induction n with
  | zero => intro hn p; exact inv_first hf ⟨0, hn⟩ rfl p
  | succ n ih =>
    intro hn p
    by_cases h0 : (n + 1) % 8 = 0
    · exact inv_first hf ⟨n + 1, hn⟩ h0 p
    · have hprev := ih (Nat.lt_of_succ_lt hn) p
      have hr : rowAt ⟨n, Nat.lt_of_succ_lt hn⟩ p = rowAt ⟨n + 1, hn⟩ p := Fin.ext (by
        show n / 8 * 1024 + p.val = (n + 1) / 8 * 1024 + p.val
        omega)
      rw [hr] at hprev
      have hlater := inv_later hf ⟨n + 1, hn⟩ h0 p hprev
      have hj : (tileOf ⟨n + 1, hn⟩).val = n % 8 + 1 := by show (n + 1) % 8 = n % 8 + 1; omega
      rw [show (n + 1) % 8 + 1 = (tileOf ⟨n + 1, hn⟩).val + 1 from rfl, part_succ, part_succ, hj]
      exact hlater

end Cert.KernelIdeal.Sweep

end
-- ==== Proof.Final.lean ====
/-
  The kernel program's run, read at its result.

  The kernel runs an `8 × 8` grid, point `t = 8·r + j`. Its one output window holds a `[1, 8, 128]` block of the
  `[8, 8, 128]` result array, block `(r, 0, 0)` at point `t`; the body stores into it, and the block is written back, only at
  the last point of each row (`t ≡ 7 (mod 8)`). So the array after the region is, row by row, what the eight points
  `8·r + 7` left in the window's staging buffer (`arr_out`): the eight blocks are the eight rows and cover the array. After
  the region the host sums the whole array from `0` and multiplies the sum by the f32 word `0x3DCCCCCD` (`run_out`); the
  six arguments are written by nothing.
-/
import proofs.«174575_j62972810494575_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx

variable (m : (ℓ : Loc nD τ sig) → Buf (Elt Ideal) ℓ) (ρ : Dev nD → PrngReg) (c : Dev nD)

/-! ## The output array after the region

Window 8's block at point `t` is block `(t / 8, 0, 0)` of the `[8, 8, 128]` array, a `[1, 8, 128]` block; it is written back at
the points `t ≡ 7 (mod 8)` only, one per row `r = t / 8`, and these eight blocks are the eight rows of the array. -/

/-- The printed index map, decided over the grid: the block index of window 8 at point `t` is `(t / 8, 0, 0)`. -/
theorem idx8 : ∀ t : Fin cfg0.N, win0_8.index t (0 : Fin 3) = t.val / 8 ∧ win0_8.index t (1 : Fin 3) = 0
    ∧ win0_8.index t (2 : Fin 3) = 0 :=
  (by decide +kernel : ∀ t : Fin grid0.N, win0_8.index t (0 : Fin 3) = t.val / 8 ∧ win0_8.index t (1 : Fin 3) = 0
    ∧ win0_8.index t (2 : Fin 3) = 0)

/-- An index of the array is in point `t`'s block iff each coordinate is in the block's range on its axis. -/
theorem mem_blk8 (t : Fin cfg0.N) (i : S8x8x128.Idx) :
    i ∈ ((cfg0.win 8).blk t).view.set ↔ ∀ a : Fin 3, win0_8.index t a * S1x8x128.size a ≤ (i a).val
      ∧ (i a).val < win0_8.index t a * S1x8x128.size a + S1x8x128.size a := by
  show i ∈ ((View.whole main_call0_v19).slice (win0_8.rect t)).set ↔ _
  rw [View.set_slice_whole, Rect.mem_set_unit]
  exact Iff.rfl

/-- The array of window 8 after the region, from what each writing point leaves in the window's staging buffer: if at
    every point `t ≡ 7 (mod 8)` the buffer holds row `t / 8` of `Gout`, the array ends holding `Gout`. -/
theorem arr_out (Gout : S8x8x128.Idx → EReal)
    (h : ∀ (t : Fin cfg0.N) (ht : t.val % 8 = 7) (a : Fin 8) (b : Fin 128),
        (outsAt0 m c t.val t.isLt).1 (ix3 (0 : Fin 1) a b)
          = Gout (ix3 (⟨t.val / 8, by have hN : cfg0.N = 64 := N_0; have := t.isLt; omega⟩ : Fin 8) a b)) :
    ((dats m 0 c).arrAt 8 cfg0.N : S8x8x128.Idx → EReal) = Gout := by
  have hN : cfg0.N = 64 := N_0
  refine (dats m 0 c).arrAt_eq_of_cover 8 Gout (fun t hf => ?_) (fun i => ?_)
  · have ht : t.val % 8 = 7 := (flush0_8 t).mp hf
    have ht64 : t.val < 64 := lt_of_lt_of_eq t.isLt N_0
    show (cfg0.win 8).cut (grid0.coords t) ((dats m 0 c).after 8 t) = _
    rw [after0_8]
    funext j
    rw [View.read_apply]
    obtain ⟨e0, e1, e2⟩ := idx8 t
    have hj0 : (j 0).val < 1 := (j 0).isLt
    have hj1 : (j 1).val < 8 := (j 1).isLt
    have hj2 : (j 2).val < 128 := (j 2).isLt
    have hl : (cfg0.win 8).xinj (grid0.coords t) j
        = ix3 (0 : Fin 1) (⟨(j 1).val, hj1⟩ : Fin 8) (⟨(j 2).val, hj2⟩ : Fin 128) := by
      funext a; apply Fin.ext
      match a with
      | ⟨0, _⟩ => show (j 0).val = 0; omega
      | ⟨1, _⟩ => rfl
      | ⟨2, _⟩ => rfl
    have hr : ((cfg0.win 8).blk t).view.emb j
        = ix3 (⟨t.val / 8, by omega⟩ : Fin 8) (⟨(j 1).val, hj1⟩ : Fin 8) (⟨(j 2).val, hj2⟩ : Fin 128) := by
      funext a; apply Fin.ext
      match a with
      | ⟨0, _⟩ => show win0_8.index t (0 : Fin 3) * 1 + 1 * (j 0).val = t.val / 8; omega
      | ⟨1, _⟩ => show win0_8.index t (1 : Fin 3) * 8 + 1 * (j 1).val = (j 1).val; omega
      | ⟨2, _⟩ => show win0_8.index t (2 : Fin 3) * 128 + 1 * (j 2).val = (j 2).val; omega
    show (outsAt0 m c t.val t.isLt).1 ((cfg0.win 8).xinj (grid0.coords t) j) = Gout (((cfg0.win 8).blk t).view.emb j)
    rw [hl, hr]
    exact h t ht _ _
  · have hi0 : (i 0).val < 8 := (i 0).isLt
    have hi1 : (i 1).val < 8 := (i 1).isLt
    have hi2 : (i 2).val < 128 := (i 2).isLt
    let t : Fin cfg0.N := ⟨8 * (i 0).val + 7, by omega⟩
    obtain ⟨e0, e1, e2⟩ := idx8 t
    have e0' : win0_8.index t (0 : Fin 3) = (8 * (i 0).val + 7) / 8 := e0
    refine ⟨t, (flush0_8 t).mpr (show (8 * (i 0).val + 7) % 8 = 7 by omega), ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 8 ≤ (i 1).val ∧ (i 1).val < win0_8.index t (1 : Fin 3) * 8 + 8; omega
    | ⟨2, _⟩ => show win0_8.index t (2 : Fin 3) * 128 ≤ (i 2).val ∧ (i 2).val < win0_8.index t (2 : Fin 3) * 128 + 128; omega

/-! ## The run, read

After the region the host sums the whole `[8, 8, 128]` array from `0` and multiplies the sum by the f32 word
`0x3DCCCCCD`; the arguments are written by nothing. -/

/-- Contents carried to a buffer's own type and back are the contents. -/
theorem ofBuf_toBuf {T : BufTy} (x : StableHlo.TRef sig T) (v : T.Contents (Elt Ideal)) : x.ofBuf (x.toBuf v) = v := by
  obtain ⟨r, rfl, _, _⟩ := x
  rfl

/-- `main_v0`'s buffer has the scalar f32 type: carrying contents to it changes nothing. -/
theorem toBuf_v0 (v : (⟨S_, .f32⟩ : BufTy).Contents (Elt Ideal)) :
    (StableHlo.TRef.of main_v0 : StableHlo.TRef sig ⟨S_, .f32⟩).toBuf v = v := rfl

/-- Window 8's array has the `[8, 8, 128]` f32 type: reading its contents at that type changes nothing. -/
theorem ofBuf_v19 (v : (main_call0_v19 : Ref sig .tc).ty.Contents (Elt Ideal)) :
    (StableHlo.TRef.of main_call0_v19 : StableHlo.TRef sig ⟨S8x8x128, .f32⟩).ofBuf v = v := rfl

/-- What the host operations after the region leave in `main_v0`, over window 8's array as the region leaves it. -/
theorem tail_v0 :
    Pipeline.afterTail₀ cfgs (dats m) 0 (V0 m) [hostOps1] c main_v0
      = mulf (Host.reduceAdd (F := Ideal) ((dats m 0 c).arrAt 8 cfg0.N : FVec Ideal S8x8x128 .f32)
            (constant (F := Ideal) S_ .f32 0x00000000#32) reducesTo_S8x8x128_S_d0_1_2 h_S_)
          (constant (F := Ideal) S_ .f32 0x3DCCCCCD#32) := by
  unfold Pipeline.afterTail₀
  show StableHlo.after hostOps1 _ (Proc.devRef .tc main_v0) = _
  after_results
  rw [Pipeline.withArrays_arr spec0 launch0.win.arr_inj c (V0 m c) (fun w => (dats m 0 c).arrAt w (cfgs 0).N) (8 : Fin 9)]
  rw [ofBuf_toBuf, ofBuf_toBuf, ofBuf_toBuf, toBuf_v0, ofBuf_v19]

/-- The run: `main_v0` ends at the constant times the sum of window 8's array as the region leaves it, the arguments
    unchanged. -/
theorem run_out : θ_run defs (onTc (τ := τ) (main (F := Ideal))) ⟨m, fun _ => 0, ρ⟩ (fun r => ∀ c : Dev nD,
      r.2.mem ((c.tc : Thread nD τ).loc main_v0)
        = mulf (Host.reduceAdd (F := Ideal) ((dats m 0 c).arrAt 8 cfg0.N : FVec Ideal S8x8x128 .f32) (constant (F := Ideal) S_ .f32 0x00000000#32) reducesTo_S8x8x128_S_d0_1_2 h_S_)
            (constant (F := Ideal) S_ .f32 0x3DCCCCCD#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (tail_v0 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.Total.lean ====
import proofs.«174575_j62972810494575_2_alg».proof.Proof.Invariant
import proofs.«174575_j62972810494575_2_alg».proof.Proof.Final
import Idealize.ShloMosaic.PureOps.Ideal.Laws

noncomputable section

open scoped BigOperators
open Idealize.ShloMosaic Idealize.ShloMosaic.TcCoe Idealize.SL.Sem Idealize.ShloMosaic.ValueIdx

/-!
  From the sweep to the result.

  At the last point of row tile `r` the normaliser and the weighted sum of row `p` are reals `l, acc` with
  `l · e^m = S1 R` and `acc · e^m = S2 R` (`R = 1024 · r + p`; all eight column tiles are in), so `acc / l = S2 R / S1 R`,
  with `l ≠ 0` because `S1 R > 0`. The block stored there holds, at every entry, the tile's masked row losses summed
  over its rows, times `2^-10`. The host then adds up all `8 · 8 · 128` entries — `1024` copies of each tile's value over
  `1024` — and multiplies by the word `0.1`: the specification's `G`.
-/

namespace Cert.KernelIdeal.Sweep

open Cert.KernelIdeal Cert.KernelIdeal.Gen Cert.KernelIdeal.Arrays Cert.KernelIdeal.Blocks Cert.KernelIdeal.At Cert.KernelIdeal.Final
open Cert.Spec Cert.Tiles Cert.Lib

/-- A sum over a rank-3 index set is the triple sum over the coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ d : Fin n2, f (ix3 a b d) := by
  rw [← Equiv.sum_comp (idxEquiv3 (n0 := n0) (n1 := n1) (n2 := n2)).symm f, Fintype.sum_prod_type]
  refine Finset.sum_congr rfl fun a _ => ?_
  rw [Fintype.sum_prod_type]
  rfl

variable (m : (ℓ : Loc nD τ sig) → Buf (Elt Ideal) ℓ) (c : Dev nD)

/-- Row tile `r`'s masked row losses, summed. -/
def tileLoss (r : Fin 8) : ℝ :=
  ∑ p : Fin 1024, msk (A1 m c) (at8 r p) * (Cert.Spec.S2 (A0 m c) (A2 m c) (A3 m c) (A4 m c) (A5 m c) (at8 r p) / Cert.Spec.S1 (A0 m c) (A4 m c) (A5 m c) (at8 r p))

theorem total_tiles : total (A0 m c) (A1 m c) (A2 m c) (A3 m c) (A4 m c) (A5 m c) = ∑ r : Fin 8, tileLoss m c r := by
  unfold total
  exact sum_tiles _

/-- The array the blocks are read off: entry `(r, a, b)` is tile `r`'s value over `1024`. -/
def outArr : S8x8x128.Idx → EReal := fun i => ((tileLoss m c ⟨(i 0).val, (i 0).isLt⟩ * (1 / 1024) : ℝ) : EReal)

variable {m c}
variable (hf : RealArgs m c)
include hf

/-- What the last point of a row tile stores, entry by entry. -/
theorem out_entry (t : Fin cfg0.N) (h7 : t.val % 8 = 7) (a : Fin 8) (b : Fin 128) :
    (outsAt0 m c t.val t.isLt).1 (ix3 (0 : Fin 1) a b)
      = outArr m c (ix3 (⟨t.val / 8, by have hN : cfg0.N = 64 := N_0; have := t.isLt; omega⟩ : Fin 8) a b) := by
  have h0 : ¬t.val % 8 = 0 := by omega
  obtain ⟨e1, e2, e3, e4⟩ := left_at_C m c t h0 h7
  rw [e4, ← e3, ← e2]
  unfold blockOut
  rw [out_at]
  have hmask : ∀ p : Fin 1024, iblk m c 2 t (ix2 p (0 : Fin 1)) = ((msk (A1 m c) (rowAt t p) : ℝ) : EReal) := fun p => by
    rw [blk_mask, mask_at]
  have hdiv : ∀ p : Fin 1024,
      Ideal.div ((outsAt0 m c t.val t.isLt).2.2.2 (ix2 p (0 : Fin 1))) ((outsAt0 m c t.val t.isLt).2.2.1 (ix2 p (0 : Fin 1)))
        = ((Cert.Spec.S2 (A0 m c) (A2 m c) (A3 m c) (A4 m c) (A5 m c) (rowAt t p) / Cert.Spec.S1 (A0 m c) (A4 m c) (A5 m c) (rowAt t p) : ℝ) : EReal) := by
    intro p
    obtain ⟨mm, l, acc, hm, hl, hacc, h1, h2⟩ := inv_at hf t.val t.isLt p
    have hS1 : l * Real.exp mm = Cert.Spec.S1 (A0 m c) (A4 m c) (A5 m c) (rowAt t p) := by
      rw [h1, h7, S1_tiles]
    have hS2 : acc * Real.exp mm = Cert.Spec.S2 (A0 m c) (A2 m c) (A3 m c) (A4 m c) (A5 m c) (rowAt t p) := by
      rw [h2, h7, S2_tiles]
    have hl0 : l ≠ 0 := fun h => by
      rw [h, zero_mul] at hS1
      exact (S1_pos (A0 m c) (A4 m c) (A5 m c) (rowAt t p)).ne hS1
    rw [hl, hacc, div_coe_coe acc l hl0, online_quot mm l acc _ _ hS1 hS2]
  simp only [hmask, hdiv, ← EReal.coe_mul]
  rw [← coe_sum, Cert.Consts.ofBits_inv1024, ← EReal.coe_mul]
  rfl

/-- The output array after the run. -/
theorem arr_eq : ((dats m 0 c).arrAt 8 cfg0.N : S8x8x128.Idx → EReal) = outArr m c :=
  arr_out m c (outArr m c) (fun t ht a b => out_entry hf t ht a b)

/-- The host's sum of the output array, times the word `0.1`, is the specification's value. -/
theorem result_eq :
    mulf (Host.reduceAdd (F := Ideal) ((dats m 0 c).arrAt 8 cfg0.N : FVec Ideal S8x8x128 .f32) (constant (F := Ideal) S_ .f32 0x00000000#32)
        reducesTo_S8x8x128_S_d0_1_2 h_S_) (constant (F := Ideal) S_ .f32 0x3DCCCCCD#32)
      = G (A0 m c) (A1 m c) (A2 m c) (A3 m c) (A4 m c) (A5 m c) := by
  rw [arr_eq hf]
  funext i
  have hsum : Host.reduceAdd (F := Ideal) (outArr m c : FVec Ideal S8x8x128 .f32) (constant (F := Ideal) S_ .f32 0x00000000#32)
      reducesTo_S8x8x128_S_d0_1_2 h_S_ i = ((total (A0 m c) (A1 m c) (A2 m c) (A3 m c) (A4 m c) (A5 m c) : ℝ) : EReal) := by
    simp only [Host.reduceAdd, Ideal.hostReduceAdd_def]
    rw [Ideal.hostReduceAdd_total reducesTo_S8x8x128_S_d0_1_2 (fun b => b.elim0)]
    show Ideal.ofBits .f32 0x00000000#32 + ∑ j : S8x8x128.Idx, outArr m c j = _
    rw [Ideal.ofBits_zero_f32, zero_add, sum_idx3]
    have e : ∀ (r : Fin 8) (a : Fin 8) (b : Fin 128), outArr m c (ix3 r a b) = ((tileLoss m c r * (1 / 1024) : ℝ) : EReal) := fun _ _ _ => rfl
    simp only [e, ← coe_sum]
    rw [total_tiles]
    refine congrArg _ (Finset.sum_congr rfl fun r _ => ?_)
    simp only [Finset.sum_const, Finset.card_univ, Fintype.card_fin, nsmul_eq_mul]
    push_cast
    ring
  show Host.reduceAdd (F := Ideal) (outArr m c : FVec Ideal S8x8x128 .f32) (constant (F := Ideal) S_ .f32 0x00000000#32)
      reducesTo_S8x8x128_S_d0_1_2 h_S_ i * Ideal.ofBits .f32 0x3DCCCCCD#32 = _
  rw [hsum]
  rfl

end Cert.KernelIdeal.Sweep

/-! ## The kernel's run, read -/

namespace Cert.KernelIdeal.Sweep

open Cert.KernelIdeal Cert.KernelIdeal.Gen Cert.KernelIdeal.Arrays Cert.KernelIdeal.Final Cert.Spec

/-- On finite inputs every weakly fair execution of the idealized kernel ends with the result at `G` of the
    argument arrays, the arguments unchanged. -/
theorem kernel_run (m : (ℓ : Loc nD τ sig) → Buf (Elt Ideal) ℓ) (ρ : Dev nD → PrngReg) (hf : ∀ c, RealArgs m c) :
    θ_run defs (onTc (τ := τ) (main (F := Ideal))) ⟨m, fun _ => 0, ρ⟩ (fun r => ∀ c : Dev nD,
      r.2.mem ((c.tc : Thread nD τ).loc main_v0) = G (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq (hf c)), (h c).2⟩) (run_out m ρ)

end Cert.KernelIdeal.Sweep

end
-- ==== Proof.RefValue.lean ====
/-
  The reference program's result is the specification's `G`, on inputs whose float entries are reals.

  The generated reading gives each of the reference's operations at an index from its operands at an index; the one
  operation it does not read, the row maximum, is a fold of `max` from `-∞` over the row's `8192` logits. Row `R` of the
  specification is the pair `(R / 2048, R % 2048)` of the `[4, 2048, ·]` arrays. At row `R` and column `c`:
    the logit is `∑ₕ hidden[R, h] · W[h, c] + b[c]`, a real, because every entry is its real part;
    the shift `M` is the maximum with `-∞` of the folded maximum of the row's logits: SOME real, and which one never matters;
    the weight is `e^(logit - M) / ∑_c' e^(logit' - M)`, the divisor a positive real;
    the error is `((tsq - 2 · crs) + csq) / 1024`;
    the row's loss `0 + ∑_c error · weight` is `S2 / S1`, for any real shift (the common factor `e^(-M)` cancels);
    the masked loss is `mask · S2 / S1`.
  The result is `(0 + ∑ over the [4, 2048] index set of the masked losses) · 0.1`; the index set is summed coordinate
  by coordinate and then as `8192` consecutive rows in `4` blocks of `2048`.
-/
import proofs.«174575_j62972810494575_2_alg».proof.Proof.Gen.ReferenceIdeal.Read
import proofs.«174575_j62972810494575_2_alg».proof.Proof.Spec
import proofs.«174575_j62972810494575_2_alg».proof.Proof.Consts
import proofs.«174575_j62972810494575_2_alg».proof.Proof.LibOnlineSoftmax
import proofs.«174575_j62972810494575_2_alg».proof.Proof.LibRsqrtBlocks
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## Index equations

The generated reading composes, for each layout operation, a function from result indices to operand indices. At an
index given by its coordinates each composite is again an index given by coordinates. -/

section Indices
variable (b : Fin 4) (s : Fin 2048) (c : Fin 8192) (k : Fin 1024) (k' : Fin 8192)

theorem lidx3 : lidx_main_v3 (ix3 b s c) k = ix3 b s k := by
  funext a; match a with | ⟨0, _⟩ => rfl | ⟨1, _⟩ => rfl | ⟨2, _⟩ => rfl
theorem ridx3 : ridx_main_v3 (ix3 b s c) k = ix2 k c := by
  funext a; match a with | ⟨0, _⟩ => rfl | ⟨1, _⟩ => rfl
theorem idx45 : idx_main_v4 (idx_main_v5 (ix3 b s c)) = ix1 c := by
  funext a; match a with | ⟨0, _⟩ => rfl
theorem idx1011 : idx_main_v10 (idx_main_v11 (ix3 b s c)) = ix2 b s := by
  funext a; match a with | ⟨0, _⟩ => rfl | ⟨1, _⟩ => rfl
theorem idx14 : idx_main_v14 (ix2 b s) k' = ix3 b s k' := by
  funext a; match a with | ⟨0, _⟩ => rfl | ⟨1, _⟩ => rfl | ⟨2, _⟩ => rfl
theorem idx1516 : idx_main_v15 (idx_main_v16 (ix3 b s c)) = ix2 b s := by
  funext a; match a with | ⟨0, _⟩ => rfl | ⟨1, _⟩ => rfl
theorem idx19 : idx_main_v19 (ix2 b s) k = ix3 b s k := by
  funext a; match a with | ⟨0, _⟩ => rfl | ⟨1, _⟩ => rfl | ⟨2, _⟩ => rfl
theorem idx2026 : idx_main_v20 (idx_main_v26 (ix3 b s c)) = ix2 b s := by
  funext a; match a with | ⟨0, _⟩ => rfl | ⟨1, _⟩ => rfl
theorem idx22 : idx_main_v22 (ix1 c) k = ix2 c k := by
  funext a; match a with | ⟨0, _⟩ => rfl | ⟨1, _⟩ => rfl
theorem lidx23 : lidx_main_v23 (ix3 b s c) k = ix3 b s k := by
  funext a; match a with | ⟨0, _⟩ => rfl | ⟨1, _⟩ => rfl | ⟨2, _⟩ => rfl
theorem ridx23 : ridx_main_v23 (ix3 b s c) k = ix2 c k := by
  funext a; match a with | ⟨0, _⟩ => rfl | ⟨1, _⟩ => rfl
theorem idx2829 : idx_main_v28 (idx_main_v29 (ix3 b s c)) = ix1 c := by
  funext a; match a with | ⟨0, _⟩ => rfl
theorem idx34 : idx_main_v34 (ix2 b s) k' = ix3 b s k' := by
  funext a; match a with | ⟨0, _⟩ => rfl | ⟨1, _⟩ => rfl | ⟨2, _⟩ => rfl

/-- Reducing a `[4, 2048, 8192]` array over its last axis leaves a `[4, 2048]` one. -/
theorem red2 : S4x2048x8192.Reduces [2] S4x2048 := by decide

/-- The index over `(b, s)` with `k'` on the reduced axis is `(b, s, k')`. -/
theorem lift7 : red2.lift (ix2 b s) k' = ix3 b s k' := by
  funext a; refine Fin.ext ?_; match a with | ⟨0, _⟩ => rfl | ⟨1, _⟩ => rfl | ⟨2, _⟩ => rfl

end Indices

/-! ## Real values in the extended reals -/

/-- A contraction of entries that are reals is the real contraction. -/
theorem dot_real {n : ℕ} (f g : Fin n → EReal) (hf : ∀ k, f k = ((f k).toReal : EReal))
    (hg : ∀ k, g k = ((g k).toReal : EReal)) :
    ∑ k, f k * g k = ((∑ k, (f k).toReal * (g k).toReal : ℝ) : EReal) := by
  rw [Cert.Lib.coe_sum]
  exact Finset.sum_congr rfl fun k _ => by rw [EReal.coe_mul, ← hf k, ← hg k]

/-- A sum of exponentials over the `8192` columns is positive, hence nonzero. -/
theorem sum_exp_ne_zero (f : Fin 8192 → ℝ) : (∑ k, Real.exp (f k)) ≠ 0 :=
  (Finset.sum_pos (fun _ _ => Real.exp_pos _) ⟨⟨0, by norm_num⟩, Finset.mem_univ _⟩).ne'

/-! ## The reference, stage by stage, at row `R` and column `c`

Row `R` is the pair `(R / 2048, R % 2048)` of the `[4, 2048, ·]` arrays. Every entry of the float arrays is its real
part (`h0` … `h5`), so every stage is a real read in the extended reals. -/

section Stages
variable (x0 : (⟨S4x2048x1024, .f32⟩ : BufTy).Contents (Elt Ideal)) (x1 : (⟨S4x2048, .i32⟩ : BufTy).Contents (Elt Ideal))
  (x2 : (⟨S4x2048x1024, .f32⟩ : BufTy).Contents (Elt Ideal)) (x3 : (⟨S8192x1024, .f32⟩ : BufTy).Contents (Elt Ideal))
  (x4 : (⟨S1024x8192, .f32⟩ : BufTy).Contents (Elt Ideal)) (x5 : (⟨S8192, .f32⟩ : BufTy).Contents (Elt Ideal))
  (h0 : ∀ i, x0 i = ((x0 i).toReal : EReal)) (h2 : ∀ i, x2 i = ((x2 i).toReal : EReal))
  (h3 : ∀ i, x3 i = ((x3 i).toReal : EReal)) (h4 : ∀ i, x4 i = ((x4 i).toReal : EReal))
  (h5 : ∀ i, x5 i = ((x5 i).toReal : EReal))

include h0 h4 h5 in
/-- The logits: `hidden · W + b`. -/
theorem v6_eq (R c : Fin 8192) :
    val_main_v6 (F := Ideal) x0 x4 x5 (ix3 (Cert.Spec.rowB R) (Cert.Spec.rowS R) c)
      = ((Cert.Spec.logit x0 x4 x5 R c : ℝ) : EReal) := by
  rw [val_main_v6_apply, val_main_v3_apply, val_main_v5_apply, val_main_v4_apply, idx45]
  simp only [lidx3, ridx3]
  rw [dot_real _ _ (fun k => h0 _) (fun k => h4 _), h5 (ix1 c), Ideal.addf_def, ← EReal.coe_add]
  rfl

include h0 h4 h5 in
/-- The row's shift — the maximum with `-∞` of the maximum, folded from `-∞`, of the row's logits — is SOME real. -/
theorem v9_real (R : Fin 8192) :
    ∃ M : ℝ, val_main_v9 (F := Ideal) x0 x4 x5 (ix2 (Cert.Spec.rowB R) (Cert.Spec.rowS R)) = (M : EReal) := by
  rw [val_main_v9_apply, val_main_v8_apply, val_main_cst_0_apply]
  unfold val_main_v7
  rw [Host.reduce_eq_fold_single FloatOps.maximumf _ _ _ red2 _ _]
  have e : (val_main_v6 (F := Ideal) x0 x4 x5 ∘ red2.lift (ix2 (Cert.Spec.rowB R) (Cert.Spec.rowS R)))
      = fun k' : Fin 8192 => ((Cert.Spec.logit x0 x4 x5 R k' : ℝ) : EReal) := funext fun k' : Fin 8192 =>
    (congrArg (val_main_v6 (F := Ideal) x0 x4 x5) (lift7 _ _ k')).trans (v6_eq x0 x4 x5 h0 h4 h5 R k')
  rw [e, val_main_cst_apply, Ideal.ofBits_def, Cert.Consts.ofBits_neg_inf]
  obtain ⟨r, hr⟩ := Cert.Lib.fold_max_real Finset.univ ⟨⟨0, by norm_num⟩, Finset.mem_univ _⟩
    (fun k' : Fin 8192 => Cert.Spec.logit x0 x4 x5 R k')
  obtain ⟨r', hr'⟩ := Cert.Lib.max_bot_real r
  refine ⟨r', ?_⟩
  show max (⊥ : EReal) (Finset.univ.fold max (⊥ : EReal) fun k' : Fin 8192 => ((Cert.Spec.logit x0 x4 x5 R k' : ℝ) : EReal)) = _
  rw [hr, hr']

include h0 h4 h5 in
/-- The shifted exponentials. -/
theorem v13_eq (R c : Fin 8192) (M : ℝ)
    (hM : val_main_v9 (F := Ideal) x0 x4 x5 (ix2 (Cert.Spec.rowB R) (Cert.Spec.rowS R)) = (M : EReal)) :
    val_main_v13 (F := Ideal) x0 x4 x5 (ix3 (Cert.Spec.rowB R) (Cert.Spec.rowS R) c)
      = ((Real.exp (Cert.Spec.logit x0 x4 x5 R c - M) : ℝ) : EReal) := by
  rw [val_main_v13_apply, val_main_v12_apply, val_main_v11_apply, val_main_v10_apply, idx1011, hM,
    v6_eq x0 x4 x5 h0 h4 h5 R c, Ideal.subf_def, ← EReal.coe_sub, Ideal.hostUnary_exp_def, Ideal.exp_coe]

include h0 h4 h5 in
/-- Their sum over the row. -/
theorem v14_eq (R : Fin 8192) (M : ℝ)
    (hM : val_main_v9 (F := Ideal) x0 x4 x5 (ix2 (Cert.Spec.rowB R) (Cert.Spec.rowS R)) = (M : EReal)) :
    val_main_v14 (F := Ideal) x0 x4 x5 (ix2 (Cert.Spec.rowB R) (Cert.Spec.rowS R))
      = ((∑ k, Real.exp (Cert.Spec.logit x0 x4 x5 R k - M) : ℝ) : EReal) := by
  rw [val_main_v14_apply, val_main_cst_1_apply, Ideal.ofBits_def, Ideal.ofBits_zero_f32, zero_add, Cert.Lib.coe_sum]
  exact Finset.sum_congr rfl fun k _ => by rw [idx14, v13_eq x0 x4 x5 h0 h4 h5 R k M hM]

include h0 h4 h5 in
/-- The softmax weights, taken with the shift `M`. -/
theorem v17_eq (R c : Fin 8192) (M : ℝ)
    (hM : val_main_v9 (F := Ideal) x0 x4 x5 (ix2 (Cert.Spec.rowB R) (Cert.Spec.rowS R)) = (M : EReal)) :
    val_main_v17 (F := Ideal) x0 x4 x5 (ix3 (Cert.Spec.rowB R) (Cert.Spec.rowS R) c)
      = ((Real.exp (Cert.Spec.logit x0 x4 x5 R c - M) / ∑ k, Real.exp (Cert.Spec.logit x0 x4 x5 R k - M) : ℝ) : EReal) := by
  rw [val_main_v17_apply, val_main_v16_apply, val_main_v15_apply, idx1516, v13_eq x0 x4 x5 h0 h4 h5 R c M hM,
    v14_eq x0 x4 x5 h0 h4 h5 R M hM, Ideal.hostDivf_def, Cert.Lib.div_coe_coe _ _ (sum_exp_ne_zero _)]

include h2 in
/-- The target row's squared norm. -/
theorem v26_eq (R c : Fin 8192) :
    val_main_v26 (F := Ideal) x2 (ix3 (Cert.Spec.rowB R) (Cert.Spec.rowS R) c) = ((Cert.Spec.tsq x2 R : ℝ) : EReal) := by
  rw [val_main_v26_apply, val_main_v20_apply, idx2026, val_main_v19_apply, val_main_cst_2_apply, Ideal.ofBits_def,
    Ideal.ofBits_zero_f32, zero_add]
  simp only [idx19, val_main_v18_apply, Ideal.mulf_def]
  rw [dot_real _ _ (fun k => h2 _) (fun k => h2 _)]
  rfl

include h2 h3 in
/-- Twice the cross term `target · codebook`. -/
theorem v25_eq (R c : Fin 8192) :
    val_main_v25 (F := Ideal) x2 x3 (ix3 (Cert.Spec.rowB R) (Cert.Spec.rowS R) c)
      = ((2 * Cert.Spec.crs x2 x3 R c : ℝ) : EReal) := by
  rw [val_main_v25_apply, val_main_v24_apply, val_main_cst_4_apply, val_main_v23_apply, Ideal.ofBits_def,
    Cert.Consts.ofBits_two, Ideal.mulf_def]
  simp only [lidx23, ridx23]
  rw [dot_real _ _ (fun k => h2 _) (fun k => h3 _), ← EReal.coe_mul]
  rfl

include h3 in
/-- The codebook row's squared norm. -/
theorem v29_eq (R c : Fin 8192) :
    val_main_v29 (F := Ideal) x3 (ix3 (Cert.Spec.rowB R) (Cert.Spec.rowS R) c) = ((Cert.Spec.csq x3 c : ℝ) : EReal) := by
  rw [val_main_v29_apply, val_main_v28_apply, idx2829, val_main_v22_apply, val_main_cst_3_apply, Ideal.ofBits_def,
    Ideal.ofBits_zero_f32, zero_add]
  simp only [idx22, val_main_v21_apply, Ideal.mulf_def]
  rw [dot_real _ _ (fun k => h3 _) (fun k => h3 _)]
  rfl

include h2 h3 in
/-- The mean squared error of row `R` against codebook row `c`. -/
theorem v32_eq (R c : Fin 8192) :
    val_main_v32 (F := Ideal) x2 x3 (ix3 (Cert.Spec.rowB R) (Cert.Spec.rowS R) c)
      = ((Cert.Spec.mse x2 x3 R c : ℝ) : EReal) := by
  rw [val_main_v32_apply, val_main_v30_apply, val_main_v27_apply, v26_eq x2 h2 R c, v25_eq x2 x3 h2 h3 R c,
    v29_eq x3 h3 R c, val_main_v31_apply, val_main_cst_5_apply, Ideal.ofBits_def, Cert.Consts.ofBits_1024,
    Ideal.subf_def, Ideal.addf_def, ← EReal.coe_sub, ← EReal.coe_add, Ideal.hostDivf_def,
    Cert.Lib.div_coe_coe _ _ (by norm_num)]
  rfl

include h0 h2 h3 h4 h5 in
/-- The row's loss: the softmax-weighted mean of the errors, whatever the shift was. -/
theorem v34_eq (R : Fin 8192) :
    val_main_v34 (F := Ideal) x0 x2 x3 x4 x5 (ix2 (Cert.Spec.rowB R) (Cert.Spec.rowS R))
      = ((Cert.Spec.S2 x0 x2 x3 x4 x5 R / Cert.Spec.S1 x0 x4 x5 R : ℝ) : EReal) := by
  obtain ⟨M, hM⟩ := v9_real x0 x4 x5 h0 h4 h5 R
  rw [val_main_v34_apply, val_main_cst_6_apply, Ideal.ofBits_def, Ideal.ofBits_zero_f32, zero_add]
  show _ = (((∑ c, Real.exp (Cert.Spec.logit x0 x4 x5 R c) * Cert.Spec.mse x2 x3 R c)
    / ∑ c, Real.exp (Cert.Spec.logit x0 x4 x5 R c) : ℝ) : EReal)
  rw [← Cert.Lib.softmax_mean_shift M (Cert.Spec.logit x0 x4 x5 R) (Cert.Spec.mse x2 x3 R), Cert.Lib.coe_sum]
  exact Finset.sum_congr rfl fun c _ => by
    rw [idx34, val_main_v33_apply, v32_eq x2 x3 h2 h3 R c, v17_eq x0 x4 x5 h0 h4 h5 R c M hM, Ideal.mulf_def,
      ← EReal.coe_mul]

include h0 h2 h3 h4 h5 in
/-- The masked loss of row `R`. -/
theorem v35_eq (R : Fin 8192) :
    val_main_v35 (F := Ideal) x0 x1 x2 x3 x4 x5 (ix2 (Cert.Spec.rowB R) (Cert.Spec.rowS R))
      = ((Cert.Spec.msk x1 R * (Cert.Spec.S2 x0 x2 x3 x4 x5 R / Cert.Spec.S1 x0 x4 x5 R) : ℝ) : EReal) := by
  rw [val_main_v35_apply, v34_eq x0 x2 x3 x4 x5 h0 h2 h3 h4 h5 R, val_main_v2_apply, val_main_v1_apply,
    val_main_v0_apply, val_main_c_apply, Ideal.mulf_def, EReal.coe_mul]
  rfl

end Stages

/-! ## The whole reference -/

/-- The reference's result is the specification: the masked rows' losses, summed over the `[4, 2048]` index set read as
    `8192` rows, times the constant. -/
theorem ref_eq [Cert.ReferenceIdeal.Facts]
    (x0 : (⟨Cert.ReferenceIdeal.S4x2048x1024, .f32⟩ : BufTy).Contents (Elt Ideal)) (x1 : (⟨Cert.ReferenceIdeal.S4x2048, .i32⟩ : BufTy).Contents (Elt Ideal))
    (x2 : (⟨Cert.ReferenceIdeal.S4x2048x1024, .f32⟩ : BufTy).Contents (Elt Ideal)) (x3 : (⟨Cert.ReferenceIdeal.S8192x1024, .f32⟩ : BufTy).Contents (Elt Ideal))
    (x4 : (⟨Cert.ReferenceIdeal.S1024x8192, .f32⟩ : BufTy).Contents (Elt Ideal)) (x5 : (⟨Cert.ReferenceIdeal.S8192, .f32⟩ : BufTy).Contents (Elt Ideal))
    (h0 : ∀ i, x0 i = ((x0 i).toReal : EReal)) (h2 : ∀ i, x2 i = ((x2 i).toReal : EReal)) (h3 : ∀ i, x3 i = ((x3 i).toReal : EReal))
    (h4 : ∀ i, x4 i = ((x4 i).toReal : EReal)) (h5 : ∀ i, x5 i = ((x5 i).toReal : EReal)) :
    Cert.ReferenceIdeal.Read.val_main_v37 (F := Ideal) x0 x1 x2 x3 x4 x5 = Cert.Spec.G x0 x1 x2 x3 x4 x5 := by
  funext i
  rw [val_main_v37_apply, val_main_v36_apply, val_main_cst_7_apply, val_main_cst_8_apply, Ideal.ofBits_def, Ideal.ofBits_def,
    Ideal.ofBits_zero_f32, zero_add, Ideal.mulf_def]
  show _ = ((Cert.Spec.total x0 x1 x2 x3 x4 x5 : ℝ) : EReal) * Ideal.ofBits .f32 0x3DCCCCCD#32
  congr 1
  rw [ValueIdx.sum_idx2,
    ← Cert.Lib.sum_div_mod (N := 8192) 4 2048 (by norm_num) (by norm_num) (fun a b => val_main_v35 (F := Ideal) x0 x1 x2 x3 x4 x5 (ix2 a b))]
  unfold Cert.Spec.total
  rw [Cert.Lib.coe_sum]
  exact Finset.sum_congr rfl fun R _ => v35_eq x0 x1 x2 x3 x4 x5 h0 h2 h3 h4 h5 R

end Cert.ReferenceIdeal.RefValue

end
-- ==== Proof.Finite.lean ====
/-
  From the precondition to the reals. The precondition says, of each of the five float arrays, that every entry's
  absolute value compares below the f32 word `0x7F800000`, which is `+∞`; the five conjuncts are and-ed into one bit,
  and the bit is `1`. An extended real `x` with `max x (-x) < +∞` is neither infinity (at `⊥` and at `⊤` the
  maximum is `⊤`), so it is the real `x.toReal` read back in the extended reals. Hence every entry of the five
  float arrays is its real part.
-/
import proofs.«174575_j62972810494575_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The f32 word `0x7F800000` is `+∞`. -/
theorem ofBits_pos_inf : Ideal.ofBits .f32 0x7F800000#32 = (⊤ : EReal) := by
  simp [Ideal.ofBits, Ideal.ieee]

/-- An extended real whose absolute value compares below `+∞` is its real part. -/
theorem real_of_abs_lt (x : EReal)
    (h : Ideal.cmp .olt (max x (-x)) (Ideal.ofBits .f32 0x7F800000#32) = 1#1) : x = ((x.toReal : ℝ) : EReal) := by
  rw [ofBits_pos_inf] at h
  induction x using EReal.rec with
  | bot => simp [Ideal.cmp] at h
  | top => simp [Ideal.cmp] at h
  | coe r => rfl

/-- The scalar shape has one index. -/
instance : Subsingleton Cert.Pre_finite_inputs.S_.Idx := ⟨fun a b => funext fun d => d.elim0⟩

/-- One conjunct: if "all entries of `|x|` are below `+∞`" came out `1`, every entry of `x` is its real part. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant Cert.Pre_finite_inputs.S_ .f32 0x7F800000#32)))
          init hr hu ix0 = 1#1) (i : s.Idx) : x i = (((x i).toReal : ℝ) : EReal) :=
  real_of_abs_lt (x i) (Host.reduce_andi_all _ init hr hu ix0 e i)

/-- The precondition holds: every entry of the five float arrays is its real part. -/
theorem real_of_pre [Cert.Pre_finite_inputs.Facts]
    (x0 : FVec Ideal Cert.Pre_finite_inputs.S4x2048x1024 .f32) (x1 : IVec Cert.Pre_finite_inputs.S4x2048 32)
    (x2 : FVec Ideal Cert.Pre_finite_inputs.S4x2048x1024 .f32) (x3 : FVec Ideal Cert.Pre_finite_inputs.S8192x1024 .f32)
    (x4 : FVec Ideal Cert.Pre_finite_inputs.S1024x8192 .f32) (x5 : FVec Ideal Cert.Pre_finite_inputs.S8192 .f32)
    (h : Cert.Pre_finite_inputs.fn (F := Ideal) x0 x1 x2 x3 x4 x5 = fun _ => 1#1) :
    (∀ i, x0 i = ((x0 i).toReal : EReal)) ∧ (∀ i, x2 i = ((x2 i).toReal : EReal)) ∧ (∀ i, x3 i = ((x3 i).toReal : EReal))
      ∧ (∀ i, x4 i = ((x4 i).toReal : EReal)) ∧ (∀ i, x5 i = ((x5 i).toReal : EReal)) := by
  have h' := congrFun h ValueIdx.ix0
  dsimp only [Cert.Pre_finite_inputs.fn, Cert.Pre_finite_inputs.fn_part1] at h'
  obtain ⟨h0123, e5⟩ := IntOp.andi_eq_one.1 h'
  obtain ⟨h012, e4⟩ := IntOp.andi_eq_one.1 h0123
  obtain ⟨h01, e3⟩ := IntOp.andi_eq_one.1 h012
  obtain ⟨e0, e2⟩ := IntOp.andi_eq_one.1 h01
  exact ⟨real_of_all x0 _ _ _ _ e0, real_of_all x2 _ _ _ _ e2, real_of_all x3 _ _ _ _ e3, real_of_all x4 _ _ _ _ e4,
    real_of_all x5 _ _ _ _ e5⟩

end Cert.Finite

end
-- ==== Proof.lean ====
/-
  The kernel computes, for 8192 token rows, the softmax over 8192 codebook columns of `hidden · W + b`, weights each column's
  mean squared distance `(‖t‖² - 2 t·c + ‖c‖²) / 1024` between the row's target and the codeword by it, and sums the rows whose
  token type is `1`, times `0.1`. The reference does this with the whole softmax in hand. The kernel sweeps the columns in
  eight tiles per row tile with a running shift: it keeps a shift `m`, a normaliser `l` and a weighted sum `acc`, rescales the
  two by `e^(m - m')` whenever the shift moves to `m'`, and divides `acc` by `l` at the end.

  Why the two agree on finite inputs. Every input entry is then a real, and so is everything computed from them. For the
  sweep the useful invariant does not mention which number the shift is: after the tiles seen so far, `l · e^m` is the plain
  sum of `e^(logit)` over their columns and `acc · e^m` the plain sum of `e^(logit) · mse` (the step is `e^(m - m') · e^(m') = e^m`
  and distributivity, which is where finiteness is used). So at the end `acc / l` is the quotient of the two plain sums over all
  columns, and that quotient is also what the reference's softmax gives, whatever shift it subtracts: the common factor
  cancels. The kernel's factor `2^-10` is exactly the reference's division by `1024`, and the `8 · 128` copies of each row
  tile's value over `1024` that the host adds up are that value.

  The modules: `Spec` states the common value `G`; `LibOnlineSoftmax` the real-number steps; `Pieces`, `LayoutAt`, `StepAt`,
  `StepReal` read one grid point; `ArraysAt`, `BlocksAt` the operands and their blocks; `Tiles`, `Invariant` the induction over
  the points; `Final`, `Total` the output array and the host's last two operations; `RefValue` the reference; `Finite` the
  precondition. The frames are the generated ones; the idealization rewrote nothing.
-/
import proofs.«174575_j62972810494575_2_alg».proof.Defs
import proofs.«174575_j62972810494575_2_alg».proof.Proof.Gen.Kernel
import proofs.«174575_j62972810494575_2_alg».proof.Proof.Gen.Kernel.Skeleton
import proofs.«174575_j62972810494575_2_alg».proof.Proof.Gen.Kernel.Launch
import proofs.«174575_j62972810494575_2_alg».proof.Proof.Gen.Kernel.Points
import proofs.«174575_j62972810494575_2_alg».proof.Proof.Gen.Kernel.Frame
import proofs.«174575_j62972810494575_2_alg».proof.Proof.Gen.KernelIdeal
import proofs.«174575_j62972810494575_2_alg».proof.Proof.Gen.KernelIdeal.Skeleton
import proofs.«174575_j62972810494575_2_alg».proof.Proof.Gen.KernelIdeal.Launch
import proofs.«174575_j62972810494575_2_alg».proof.Proof.Gen.KernelIdeal.Points
import proofs.«174575_j62972810494575_2_alg».proof.Proof.Gen.KernelIdeal.Frame
import proofs.«174575_j62972810494575_2_alg».proof.Proof.Gen.ReferenceIdeal
import proofs.«174575_j62972810494575_2_alg».proof.Proof.Gen.Pre_finite_inputs
import proofs.«174575_j62972810494575_2_alg».proof.Proof.Gen.ReferenceIdeal.Run
import proofs.«174575_j62972810494575_2_alg».proof.Proof.Gen.ReferenceIdeal.Read
import proofs.«174575_j62972810494575_2_alg».proof.Proof.Total
import proofs.«174575_j62972810494575_2_alg».proof.Proof.RefValue
import proofs.«174575_j62972810494575_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the result at the specification's value of the arguments. -/
theorem algebraic : Cert.algebraic_KernelIdeal_ReferenceIdeal := by
  intro m ρ m' ρ' hpre hagree
  have hf : ∀ c, Cert.KernelIdeal.Sweep.RealArgs m c := fun c => by
    obtain ⟨a0, a2, a3, a4, a5⟩ := Cert.Finite.real_of_pre _ _ _ _ _ _ (hpre c)
    exact ⟨a0, a2, a3, a4, a5⟩
  refine ⟨fun c => Cert.Spec.G (Cert.KernelIdeal.Arrays.A0 m c) (Cert.KernelIdeal.Arrays.A1 m c) (Cert.KernelIdeal.Arrays.A2 m c)
      (Cert.KernelIdeal.Arrays.A3 m c) (Cert.KernelIdeal.Arrays.A4 m c) (Cert.KernelIdeal.Arrays.A5 m c),
    Cert.KernelIdeal.Sweep.kernel_run m ρ hf, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1,
    (hagree c).2.2.2.2.1, (hagree c).2.2.2.2.2]
  exact Cert.ReferenceIdeal.RefValue.ref_eq _ _ _ _ _ _ (hf c).h0 (hf c).h2 (hf c).h3 (hf c).h4 (hf c).h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
